-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x1x64x64 : Shape := ⟨4, ![32, 1, 64, 64]⟩
abbrev S256 : Shape := ⟨1, ![256]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S32x256x64x64 .f32) (main_arg1 : IVec S32x1x64x64 1) (main_arg2 : FVec F S256 .f32) (main_arg3 : FVec F S256 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256 .f32 := Host.absf main_arg2
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S32x256x64x64 : Shape := ⟨4, ![32, 256, 64, 64]⟩
abbrev S32x1x64x64 : Shape := ⟨4, ![32, 1, 64, 64]⟩
abbrev S256 : Shape := ⟨1, ![256]⟩
abbrev S1x256x64x64 : Shape := ⟨4, ![1, 256, 64, 64]⟩
abbrev S1x1x64x64 : Shape := ⟨4, ![1, 1, 64, 64]⟩
abbrev S256x64x64 : Shape := ⟨3, ![256, 64, 64]⟩
abbrev S64x64 : Shape := ⟨2, ![64, 64]⟩
abbrev S1x64x64 : Shape := ⟨3, ![1, 64, 64]⟩
abbrev S256x64 : Shape := ⟨2, ![256, 64]⟩
abbrev S_ : Shape := ⟨0, ![]⟩
abbrev S256x1x1 : Shape := ⟨3, ![256, 1, 1]⟩

abbrev nBuf : Space → Nat
  | .hbm => 24
  | .vmem => 16
  | .smem => 0
  | _ => 0

abbrev bufTy : (tb : Table) → Fin (tcTables nBuf tb) → BufTy
  | .hbm, ⟨0, _⟩ => ⟨S32x256x64x64, .f32⟩
  | .hbm, ⟨1, _⟩ => ⟨S32x1x64x64, .i1⟩
  | .hbm, ⟨2, _⟩ => ⟨S256, .f32⟩
  | .hbm, ⟨3, _⟩ => ⟨S256, .f32⟩
  | .hbm, ⟨4, _⟩ => ⟨S32x1x64x64, .i1⟩
  | .hbm, ⟨5, _⟩ => ⟨S32x1x64x64, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S32x256x64x64, .f32⟩
  | .local _ .vmem, ⟨0, _⟩ => ⟨S1x256x64x64, .f32⟩
  | .local _ .vmem, ⟨1, _⟩ => ⟨S1x256x64x64, .f32⟩
  | .local _ .vmem, ⟨2, _⟩ => ⟨S1x1x64x64, .f32⟩
  | .local _ .vmem, ⟨3, _⟩ => ⟨S1x1x64x64, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S1x256x64x64, .f32⟩
  | .local _ .vmem, ⟨9, _⟩ => ⟨S1x256x64x64, .f32⟩
  | .local _ .vmem, ⟨10, _⟩ => ⟨S1x1x64x64, .f32⟩
  | .local _ .vmem, ⟨11, _⟩ => ⟨S1x1x64x64, .f32⟩
  | .local _ .vmem, ⟨12, _⟩ => ⟨S256, .f32⟩
  | .local _ .vmem, ⟨13, _⟩ => ⟨S256, .f32⟩
  | .local _ .vmem, ⟨14, _⟩ => ⟨S1x256x64x64, .f32⟩
  | .local _ .vmem, ⟨15, _⟩ => ⟨S1x256x64x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v26 : BitVec 1 := Scalar.cmpi .eq arg0 c31_i32
  let v27 : BitVec 32 := Scalar.extui v26
  let c0_i32_15 : BitVec 32 := 0#32
  let v28 : BitVec 1 := Scalar.cmpi .ne v27 c0_i32_15
  v28

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S1x256x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x256x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S256_S256_0 : ∀ a, (![0] : Fin 1 → Nat) a + S256.size a ≤ S256.size a
  h_S256 : 0 < S256.numel
  shapeCasts_S256_S256 : S256.ShapeCasts S256
  inb_S1x256x64x64_S1x256x64x64_0_0_0_0 : ∀ a, (![0, 0, 0, 0] : Fin 4 → Nat) a + S1x256x64x64.size a ≤ S1x256x64x64.size a
  h_S1x256x64x64 : 0 < S1x256x64x64.numel
  shapeCasts_S1x256x64x64_S256x64x64 : S1x256x64x64.ShapeCasts S256x64x64
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  shapeCasts_S64x64_S1x64x64 : S64x64.ShapeCasts S1x64x64
  shapeCasts_S1x64x64_S1x64x64 : S1x64x64.ShapeCasts S1x64x64
  broadcasts_S1x64x64_S256x64x64 : S1x64x64.Broadcasts S256x64x64
  reduces_S256x64x64_S256x64 : S256x64x64.Reduces [2] S256x64
  reduces_S256x64_S256 : S256x64.Reduces [1] S256
  reducesTo_S32x1x64x64_S_d0_1_2_3 : S32x1x64x64.ReducesTo [0, 1, 2, 3] S_
  h_S_ : 0 < S_.numel
  bcast_S_S256 : S_.BroadcastsInDim S256 (![] : Fin 0 → Fin S256.rank)
  shapeCasts_S256_S256x1x1 : S256.ShapeCasts S256x1x1
  shapeCasts_S256x1x1_S256x1x1 : S256x1x1.ShapeCasts S256x1x1
  broadcasts_S256x1x1_S256x64x64 : S256x1x1.Broadcasts S256x64x64
  shapeCasts_S256x64x64_S1x256x64x64 : S256x64x64.ShapeCasts S1x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64x64.size a ≤ S32x256x64x64.size a
  hwx0_0 : ∀ i : grid0.Coords, EltTy.bits .f32 = 32 ∨ (Rect.block (s := S32x256x64x64) S1x256x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x64.size a ≤ S32x1x64x64.size a
  hwx0_1 : ∀ i : grid0.Coords, EltTy.bits .f32 = 32 ∨ (Rect.block (s := S32x1x64x64) S1x1x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64x64.size a ≤ S32x256x64x64.size a
  hwx1_0 : ∀ i : grid1.Coords, EltTy.bits .f32 = 32 ∨ (Rect.block (s := S32x256x64x64) S1x256x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x64.size a ≤ S32x1x64x64.size a
  hwx1_1 : ∀ i : grid1.Coords, EltTy.bits .f32 = 32 ∨ (Rect.block (s := S32x1x64x64) S1x1x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64x64.size a ≤ S32x256x64x64.size a
  hwx1_4 : ∀ i : grid1.Coords, EltTy.bits .f32 = 32 ∨ (Rect.block (s := S32x256x64x64) S1x256x64x64.size (cc1_transform_4 i) (hinb1_4 i)).WholeWords (EltTy.packing .f32)

variable [Facts₀]

abbrev win0_0 : Pipeline.Window sig grid0 :=
  Pipeline.Window.ofSpec (Memref.whole main_arg0) S1x256x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S256.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S256.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x256x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x256x64x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S32x1x64x64 : Shape := ⟨4, ![32, 1, 64, 64]⟩
abbrev S256 : Shape := ⟨1, ![256]⟩
abbrev S_ : Shape := ⟨0, ![]⟩
abbrev S1x256x1x1 : Shape := ⟨4, ![1, 256, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S32x1x64x64, .i1⟩
  | .hbm, ⟨2, _⟩ => ⟨S256, .f32⟩
  | .hbm, ⟨3, _⟩ => ⟨S256, .f32⟩
  | .hbm, ⟨4, _⟩ => ⟨S32x1x64x64, .i1⟩
  | .hbm, ⟨5, _⟩ => ⟨S32x1x64x64, .f32⟩
  | .hbm, ⟨6, _⟩ => ⟨S_, .f32⟩
  | .hbm, ⟨7, _⟩ => ⟨S_, .f32⟩
  | .hbm, ⟨8, _⟩ => ⟨S32x256x64x64, .f32⟩
  | .hbm, ⟨9, _⟩ => ⟨S32x256x64x64, .f32⟩
  | .hbm, ⟨10, _⟩ => ⟨S_, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S1x256x1x1, .f32⟩
  | .hbm, ⟨15, _⟩ => ⟨S32x256x64x64, .f32⟩
  | .hbm, ⟨16, _⟩ => ⟨S32x256x64x64, .f32⟩
  | .hbm, ⟨17, _⟩ => ⟨S32x256x64x64, .f32⟩
  | .hbm, ⟨18, _⟩ => ⟨S32x256x64x64, .f32⟩
  | .hbm, ⟨19, _⟩ => ⟨S32x256x64x64, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S1x256x1x1, .f32⟩
  | .hbm, ⟨25, _⟩ => ⟨S_, .f32⟩
  | .hbm, ⟨26, _⟩ => ⟨S256, .f32⟩
  | .hbm, ⟨27, _⟩ => ⟨S256, .f32⟩
  | .hbm, ⟨28, _⟩ => ⟨S256, .f32⟩
  | .hbm, ⟨29, _⟩ => ⟨S1x256x1x1, .f32⟩
  | .hbm, ⟨30, _⟩ => ⟨S1x256x1x1, .f32⟩
  | .hbm, ⟨31, _⟩ => ⟨S32x256x64x64, .f32⟩
  | .hbm, ⟨32, _⟩ => ⟨S32x256x64x64, .f32⟩
  | .hbm, ⟨33, _⟩ => ⟨S32x256x64x64, .f32⟩
  | .hbm, ⟨34, _⟩ => ⟨S32x256x64x64, .f32⟩
  | .hbm, ⟨35, _⟩ => ⟨S1x256x1x1, .f32⟩
  | .hbm, ⟨36, _⟩ => ⟨S32x256x64x64, .f32⟩
  | .hbm, ⟨37, _⟩ => ⟨S32x256x64x64, .f32⟩
  | .hbm, ⟨38, _⟩ => ⟨S32x256x64x64, .i1⟩
  | .hbm, ⟨39, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  reducesTo_S32x1x64x64_S_d0_1_2_3 : S32x1x64x64.ReducesTo [0, 1, 2, 3] S_
  h_S_ : 0 < S_.numel
  bcast_S32x1x64x64_S32x256x64x64_0_1_2_3 : S32x1x64x64.BroadcastsInDim S32x256x64x64 (![0, 1, 2, 3] : Fin 4 → Fin S32x256x64x64.rank)
  reducesTo_S32x256x64x64_S256_d0_2_3 : S32x256x64x64.ReducesTo [0, 2, 3] S256
  bcast_S_S256 : S_.BroadcastsInDim S256 (![] : Fin 0 → Fin S256.rank)
  bcast_S256_S1x256x1x1_1 : S256.BroadcastsInDim S1x256x1x1 (![1] : Fin 1 → Fin S1x256x1x1.rank)
  bcast_S1x256x1x1_S32x256x64x64_0_1_2_3 : S1x256x1x1.BroadcastsInDim S32x256x64x64 (![0, 1, 2, 3] : Fin 4 → Fin S32x256x64x64.rank)

variable [Facts₀]

class Facts : Prop extends Facts₀ where

variable [Facts]
-- ==== Proof.WStatsBody.lean ====
import proofs.«152003_j17076789969318_2_alg».proof.Proof.Gen.Kernel.Launch
import proofs.«152003_j17076789969318_2_alg».proof.Proof.Gen.Kernel.Skeleton
import proofs.«152003_j17076789969318_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pallas_call: per-channel masked sums accumulated over the batch

Grid point t handles batch element t.  The body adds, per channel d, the block's masked sum
Σ_{h,w} x[t,d,h,w]·nm[t,h,w] (and the masked sum of squares) to two running vectors kept in scratch; the first
point starts them from zero, the last point copies them to the two result blocks. -/

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two conditions of the body, decided over the grid -/

/-- "this is the first grid point" as the body computes it, -/
abbrev cond1 (i : grid0.Coords) : Prop := (Scalar.cmpi .ne (Scalar.extui (Scalar.cmpi .eq (BitVec.ofNat 32 (i 0).val) 0#32)) 0#32) = 1#1
/-- and "this is the last one". -/
abbrev cond2 (i : grid0.Coords) : Prop := k0_cond2 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 31 :=
  (by decide +kernel : ∀ t : Fin grid0.N, cond2 (grid0.coords t) ↔ t.val = 31)

/-- The inputs are never idle; the two result windows are idle, and not written back, except at the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond2 (grid0.coords t) → cfg0.idle 2 (grid0.coords t) = true := by decide +kernel
theorem idleAt0_3 : ∀ t : Fin cfg0.N, ¬cond2 (grid0.coords t) → cfg0.idle 3 (grid0.coords t) = true := by decide +kernel
theorem noFlush0_2 : ∀ t : Fin cfg0.N, ¬cond2 (grid0.coords t) → (cfg0.win 2).flush t = false := by decide +kernel
theorem noFlush0_3 : ∀ t : Fin cfg0.N, ¬cond2 (grid0.coords t) → (cfg0.win 3).flush t = false := by decide +kernel
theorem liveAt0_2 : ∀ t : Fin cfg0.N, cond2 (grid0.coords t) → cfg0.idle 2 (grid0.coords t) = false := by decide +kernel
theorem liveAt0_3 : ∀ t : Fin cfg0.N, cond2 (grid0.coords t) → cfg0.idle 3 (grid0.coords t) = false := by decide +kernel

/-- The two running vectors' scratch buffers. -/
abbrev scM0 : Memref sig .tc .vmem S256 .f32 := Memref.whole cc0_scratch0
abbrev scM1 : Memref sig .tc .vmem S256 .f32 := Memref.whole cc0_scratch1

theorem hz1 : (![0] : Fin S256.rank → Nat) = fun _ => 0 := by funext a; match a with | ⟨0, _⟩ => rfl
theorem hz4 : (![0, 0, 0, 0] : Fin S1x256x64x64.rank → Nat) = fun _ => 0 := by
  funext a; match a with | ⟨0, _⟩ => rfl | ⟨1, _⟩ => rfl | ⟨2, _⟩ => rfl | ⟨3, _⟩ => rfl
theorem hz4' : (![0, 0, 0, 0] : Fin S1x1x64x64.rank → Nat) = fun _ => 0 := by
  funext a; match a with | ⟨0, _⟩ => rfl | ⟨1, _⟩ => rfl | ⟨2, _⟩ => rfl | ⟨3, _⟩ => rfl

/-- What a whole-buffer store at offset zero, possibly after earlier ones, leaves when read back: its payload, the
    loads inside it read through whole-buffer rectangles as well. -/
theorem cover_head (w : Vec F S256 .f32) (L : List (View.Piece (Elt F) S256 .f32)) (y : S256.Idx) :
    ∃ q ∈ ((⟨Rect.unit (s := S256) ![0] S256.size Gen.inb_S256_S256_0, w⟩ : View.Piece (Elt F) S256 .f32) :: L), y ∈ q.1.set :=
  ⟨_, List.mem_cons_self .., View.mem_set_unit_zero (S := S256) hz1 Gen.inb_S256_S256_0 y⟩

macro "close_store" : tactic => `(tactic| (
  sl_unfold_run_names
  refine (View.read_writes_eq_canon _ _ _ (cover_head _ _)).trans ?_
  rw [View.canon_cons_unit_zero hz1]
  simp only [View.readCov_unit_zero (S := S256) _ hz1, View.readAt_eq_ld, Memref.IsWhole.read_unread, View.ld_unit_zero (S := S256) hz1,
    View.ld_unit_zero (S := S1x256x64x64) hz4, View.ld_unit_zero (S := S1x1x64x64) hz4']))

/-! ## The body's three runs: a middle point, the first point, the last point -/

set_option maxHeartbeats 1000000 in
/-- A middle point: each running vector is replaced by itself plus the block's masked sums; nothing else changes. -/
theorem run_mid (c : Dev nD) (i : grid0.Coords)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S256 .f32) (harg6 : arg6.IsWhole)
    (hc1 : ¬cond1 i) (hc2 : ¬cond2 i)
    (x0 : Vec F S1x256x64x64 .f32) (x1 : Vec F S1x1x64x64 .f32) (d3 d4 s0 s1 : Vec F S256 .f32) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare d3 ∗ owns (c : Thread nD τ) arg4 fullShare d4
            ∗ owns (c : Thread nD τ) arg5 fullShare (k0_pay5 x0 x1 s0) ∗ owns (c : Thread nD τ) arg6 fullShare (k0_pay6 x0 x1 s1)) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]
  · iexists _; isplitr
    swap; · iexact H5
    ipureintro
    close_store
  · iexists _; isplitr
    swap; · iexact H6
    ipureintro
    close_store

set_option maxHeartbeats 1000000 in
/-- The first point: the running vectors, whatever they held, are zeroed and then take the block's masked sums. -/
theorem run_first (c : Dev nD) (i : grid0.Coords)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S256 .f32) (harg6 : arg6.IsWhole)
    (hc1 : cond1 i) (hc2 : ¬cond2 i)
    (x0 : Vec F S1x256x64x64 .f32) (x1 : Vec F S1x1x64x64 .f32) (d3 d4 d5 d6 : Vec F S256 .f32) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4
        ∗ owns (c : Thread nD τ) arg5 fullShare d5 ∗ owns (c : Thread nD τ) arg6 fullShare d6
        ∗ (iprop(owns (c : Thread nD τ) arg1 fullShare x0 ∗ owns (c : Thread nD τ) arg2 fullShare x1 ∗ owns (c : Thread nD τ) arg3 fullShare d3 ∗ owns (c : Thread nD τ) arg4 fullShare d4
            ∗ owns (c : Thread nD τ) arg5 fullShare (k0_pay5 x0 x1 (k0_pay1 (F := F))) ∗ owns (c : Thread nD τ) arg6 fullShare (k0_pay6 x0 x1 (k0_pay2 (F := F)))) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]
  · iexists _; isplitr
    swap; · iexact H5
    ipureintro
    close_store
  · iexists _; isplitr
    swap; · iexact H6
    ipureintro
    close_store

set_option maxHeartbeats 1000000 in
/-- The last point: as a middle point, and the two result blocks take the running vectors' new contents. -/
theorem run_last (c : Dev nD) (i : grid0.Coords)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S256 .f32) (harg6 : arg6.IsWhole)
    (hc1 : ¬cond1 i) (hc2 : cond2 i)
    (x0 : Vec F S1x256x64x64 .f32) (x1 : Vec F S1x1x64x64 .f32) (d3 d4 s0 s1 : Vec F S256 .f32) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k0_pay5 x0 x1 s0) ∗ owns (c : Thread nD τ) arg4 fullShare (k0_pay6 x0 x1 s1)
            ∗ owns (c : Thread nD τ) arg5 fullShare (k0_pay5 x0 x1 s0) ∗ owns (c : Thread nD τ) arg6 fullShare (k0_pay6 x0 x1 s1)) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]
  · iexists _; isplitr
    swap; · iexact H3
    ipureintro
    close_store
  isplitl [H4]
  · iexists _; isplitr
    swap; · iexact H4
    ipureintro
    close_store
  isplitl [H5]
  · iexists _; isplitr
    swap; · iexact H5
    ipureintro
    close_store
  · iexists _; isplitr
    swap; · iexact H6
    ipureintro
    close_store

end Cert.Kernel.Hand
end
-- ==== Proof.WStatsData.lean ====
import proofs.«152003_j17076789969318_2_alg».proof.Proof.WStatsBody
import proofs.«152003_j17076789969318_2_alg».proof.Proof.Gen.Kernel.Launch
import proofs.«152003_j17076789969318_2_alg».proof.Proof.Gen.Kernel.Skeleton
import proofs.«152003_j17076789969318_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first pallas_call's proof data: the running sums point by point -/

section Region0

variable (V : (c : Dev nD) → (b : Ref sig .tc) → Buf (Elt F) ((c : Thread nD τ).loc b))

/-- The running masked sum after point n: the first point starts from the zero vector, every later point adds
    its block's masked sums to what the point before left. -/
def acc0 (c : Dev nD) : (n : ℕ) → n < cfg0.N → Vec F S256 .f32
  | 0, h => k0_pay5 (iblk0 V c 0 ⟨0, h⟩) (iblk0 V c 1 ⟨0, h⟩) (k0_pay1 (F := F))
  | n + 1, h => k0_pay5 (iblk0 V c 0 ⟨n + 1, h⟩) (iblk0 V c 1 ⟨n + 1, h⟩) (acc0 c n (Nat.lt_of_succ_lt h))
/-- The running masked sum of squares after point n, likewise. -/
def acc1 (c : Dev nD) : (n : ℕ) → n < cfg0.N → Vec F S256 .f32
  | 0, h => k0_pay6 (iblk0 V c 0 ⟨0, h⟩) (iblk0 V c 1 ⟨0, h⟩) (k0_pay2 (F := F))
  | n + 1, h => k0_pay6 (iblk0 V c 0 ⟨n + 1, h⟩) (iblk0 V c 1 ⟨n + 1, h⟩) (acc1 c n (Nat.lt_of_succ_lt h))

theorem acc0_zero (c : Dev nD) (t : Fin cfg0.N) (hz : t.val = 0) :
    acc0 V c t.val t.isLt = k0_pay5 (iblk0 V c 0 t) (iblk0 V c 1 t) (k0_pay1 (F := F)) := by
  obtain ⟨n, hn⟩ := t
  cases n with
  | zero => rfl
  | succ n => exact absurd hz (Nat.succ_ne_zero _)
theorem acc0_pos (c : Dev nD) (t : Fin cfg0.N) (hz : t.val ≠ 0) :
    acc0 V c t.val t.isLt = k0_pay5 (iblk0 V c 0 t) (iblk0 V c 1 t) (acc0 V c (t.val - 1) (Nat.lt_of_le_of_lt (Nat.sub_le _ _) t.isLt)) := by
  obtain ⟨n, hn⟩ := t
  cases n with
  | zero => exact absurd rfl hz
  | succ n => rfl
theorem acc1_zero (c : Dev nD) (t : Fin cfg0.N) (hz : t.val = 0) :
    acc1 V c t.val t.isLt = k0_pay6 (iblk0 V c 0 t) (iblk0 V c 1 t) (k0_pay2 (F := F)) := by
  obtain ⟨n, hn⟩ := t
  cases n with
  | zero => rfl
  | succ n => exact absurd hz (Nat.succ_ne_zero _)
theorem acc1_pos (c : Dev nD) (t : Fin cfg0.N) (hz : t.val ≠ 0) :
    acc1 V c t.val t.isLt = k0_pay6 (iblk0 V c 0 t) (iblk0 V c 1 t) (acc1 V c (t.val - 1) (Nat.lt_of_le_of_lt (Nat.sub_le _ _) t.isLt)) := by
  obtain ⟨n, hn⟩ := t
  cases n with
  | zero => exact absurd rfl hz
  | succ n => rfl

end Region0

/-- The scoped buffers of the core that are neither staging buffers of this call nor its two scratch vectors:
    the second call's staging buffers, each at some contents. -/
def Rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class's region invariant with the two scratch vectors named. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ Rest8 (F := F) c) ∗ (∃ r, prngReg c r)) := by
  unfold Pipeline.ΦA Rest8; rw [scopedRest0_eq]; simp only [scM0, scM1, owns_whole]; try rfl

section Region0

variable (V : (c : Dev nD) → (b : Ref sig .tc) → Buf (Elt F) ((c : Thread nD τ).loc b))

/-- The region invariant before position n: before the first point the class's (every scratch at anything);
    afterwards the two scratch vectors at the running sums the point before left. -/
def PhiS (c : Dev nD) : (n : ℕ) → n ≤ cfg0.N → sProp 𝕄
  | 0, _ => Pipeline.ΦA spec0 c
  | n + 1, hn => iprop((owns (c : Thread nD τ) scM0 fullShare (acc0 V c n hn) ∗ owns (c : Thread nD τ) scM1 fullShare (acc1 V c n hn) ∗ Rest8 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare (acc0 V c n hn) ∗ owns (c : Thread nD τ) scM1 fullShare (acc1 V c n hn) ∗ Rest8 (F := F) c) ∗ (∃ r, prngReg c r)) := rfl
theorem PhiS_pos (c : Dev nD) (n : ℕ) (h : n ≤ cfg0.N) (hz : n ≠ 0) :
    PhiS V c n h = iprop((owns (c : Thread nD τ) scM0 fullShare (acc0 V c (n - 1) (by omega)) ∗ owns (c : Thread nD τ) scM1 fullShare (acc1 V c (n - 1) (by omega)) ∗ Rest8 (F := F) c) ∗ (∃ r, prngReg c r)) := by
  cases n with
  | zero => exact absurd rfl hz
  | succ n => rfl

/-- The proof data: the arrays as the region finds them; after the body each input's buffer at its block, the
    two result buffers at the running sums (read only at the last point, where the body copies them there). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
    | ⟨3, _⟩ => acc1 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem after0_3 (c : Dev nD) (t : Fin cfg0.N) : (dat0 V c).after 3 t = acc1 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point: the first point starts the running sums, a middle point adds to them, the last point
    adds and copies them to the result blocks; the invariant hands the scratch over at what the point before left
    and takes it back at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 32 := lt_of_lt_of_eq t.isLt (show cfg0.N = 32 from N_0)
  by_cases h2 : t.val = 31
  · have hc2 : cond2 (grid0.coords t) := (hcond2 t).mpr h2
    have hc1 : ¬cond1 (grid0.coords t) := fun h => by have := (hcond1 t).mp h; omega
    have hz : t.val ≠ 0 := by omega
    rw [show (dat0 V c).leavesExact 2 t = owns (c : Thread nD τ) (st0_2 t) fullShare ((dat0 V c).after 2 t) from by
      unfold Dat.leavesExact; rw [liveAt0_2 t hc2], after0_2]
    rw [show (dat0 V c).leavesExact 3 t = owns (c : Thread nD τ) (st0_3 t) fullShare ((dat0 V c).after 3 t) from by
      unfold Dat.leavesExact; rw [liveAt0_3 t hc2], after0_3]
    rw [acc0_pos V c t hz, acc1_pos V c t hz, PhiS_castSucc V c t, PhiS_pos V c _ _ hz]
    iintro ⟨⟨⟨HS0, HS1, HR⟩, Hg⟩, Ho, ⟨%d0, H0⟩, ⟨%d1, H1⟩, ⟨%d2, H2⟩, ⟨%d3, H3⟩⟩
    iapply (run_last c (grid0.coords t) _ _ _ _ _ _ _ _ _ _ _ _ hc1 hc2 (iblk0 V c 0 t) (iblk0 V c 1 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    iexact H3
  · have hc2 : ¬cond2 (grid0.coords t) := fun h => h2 ((hcond2 t).mp h)
    rw [Dat.leavesExact_idle (dat0 V c) 2 t (idleAt0_2 t hc2) (noFlush0_2 t hc2),
      Dat.leavesExact_idle (dat0 V c) 3 t (idleAt0_3 t hc2) (noFlush0_3 t hc2)]
    by_cases hz : t.val = 0
    · have hc1 : cond1 (grid0.coords t) := (hcond1 t).mpr hz
      rw [acc0_zero V c t hz, acc1_zero V c t hz, PhiS_castSucc V c t, PhiS_zero V c _ _ hz, PhiA0_eq]
      iintro ⟨⟨⟨⟨%e0, HS0⟩, ⟨%e1, HS1⟩, HR⟩, Hg⟩, Ho, ⟨%d0, H0⟩, ⟨%d1, H1⟩, ⟨%d2, H2⟩, ⟨%d3, H3⟩⟩
      iapply (run_first c (grid0.coords t) _ _ _ _ _ _ _ _ _ _ _ _ hc1 hc2 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexists _; iexact H2
      iexists _; iexact H3
    · have hc1 : ¬cond1 (grid0.coords t) := fun h => hz ((hcond1 t).mp h)
      rw [acc0_pos V c t hz, acc1_pos V c t hz, PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply (run_mid c (grid0.coords t) _ _ _ _ _ _ _ _ _ _ _ _ hc1 hc2 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _
/-- and after the last point the invariant gives it back, the running sums' names forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Region0

end Cert.Kernel.Hand
end
-- ==== Proof.WApplyBody.lean ====
/-
  Region 1 of the idealized kernel program: the second pallas_call, `cc1__apply_kernel`, on a grid of 32 points
  (one per batch index). Its five windows are the activation block [1,256,64,64], the mask block [1,1,64,64], the
  per-channel scale and shift vectors [256] (fetched once, at the first point), and the output block [1,256,64,64]
  written back at every point.

  Everything here is stated at a PARAMETER `V`: the TensorCore's buffer contents when the region is entered.
  * `iblk1`  — a window's block at a grid point, read off its array as the region finds it;
  * `out1_4` — what the body leaves in the output window's staging buffer: its one store, over the whole block,
                of the body's arithmetic applied to what it loaded from the four input buffers;
  * `sound_kernel1` — the body's triple: inputs held at their read contents, the output buffer at anything
                (the body loads it once, without using the value, before it overwrites it);
  * `dat1`   — the pipeline's proof data: each input buffer keeps its block, the output buffer holds `out1_4` of
                the four input blocks; nothing owed, full shares, the class invariant;
  * `body_obligation1` — the library's body obligation at every point.
-/
import proofs.«152003_j17076789969318_2_alg».proof.Proof.Gen.Kernel.Launch
import proofs.«152003_j17076789969318_2_alg».proof.Proof.Gen.Kernel.Skeleton
import proofs.«152003_j17076789969318_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where the pipeline does not fetch, the
    block index has not moved, so the block kept from the point before is this point's. Window 0 (activations). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the mask). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the scale vector; fetched at the first point only, its block index constant). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (the shift vector; fetched at the first point only, its block index constant). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole staging buffer -/

/-- The whole activation / output block. -/
abbrev r1_x : Rect S1x256x64x64 := Rect.unit (s := S1x256x64x64) ![0, 0, 0, 0] S1x256x64x64.size inb_S1x256x64x64_S1x256x64x64_0_0_0_0
/-- The whole mask block. -/
abbrev r1_m : Rect S1x1x64x64 := Rect.unit (s := S1x1x64x64) ![0, 0, 0, 0] S1x1x64x64.size inb_S1x1x64x64_S1x1x64x64_0_0_0_0
/-- The whole per-channel vector. -/
abbrev r1_c : Rect S256 := Rect.unit (s := S256) ![0] S256.size inb_S256_S256_0

/-! ## What the body leaves in the output window's buffer -/

/-- Window 4's staging buffer after the body, from the four input windows' blocks: its one store, over the whole
    block, of the body's arithmetic on what the four loads read. -/
def out1_4 (x0 : Vec F S1x256x64x64 .f32) (x1 : Vec F S1x1x64x64 .f32) (x2 x3 : Vec F S256 .f32) : Vec F S1x256x64x64 .f32 :=
  View.canon [⟨r1_x, k1_pay1 (View.ld x0 r1_x) (View.ld x1 r1_m) (View.ld x2 r1_c) (View.ld x3 r1_c)⟩]

/-- The one store is over the whole buffer, so it covers it. -/
theorem cover1_4 (p0 : Vec F S1x256x64x64 .f32) (y : S1x256x64x64.Idx) :
    ∃ pc ∈ ([⟨r1_x, p0⟩] : List (View.Piece (Elt F) S1x256x64x64 .f32)), y ∈ pc.1.set :=
  View.cover_of_tiled [⟨r1_x, p0⟩] S1x256x64x64.size (by rfl) y

/-! ## The body's triple -/

set_option maxHeartbeats 1000000 in
/-- The kernel body on whole staging memrefs — the four inputs' at read contents `x0 … x3`, the output's at
    anything — runs to the continuation holding the inputs' as they were and the output's at `out1_4` of the
    inputs'. The body's load of the output buffer before its store reads whatever is there and is not used. -/
theorem sound_kernel1 (c : Dev nD) (E : Set ℕ) (i : grid1.Coords)
    (arg1 : Memref sig .tc .vmem S1x256x64x64 .f32) (harg1 : arg1.IsWhole)
    (arg2 : Memref sig .tc .vmem S1x1x64x64 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S1x256x64x64 .f32) (harg5 : arg5.IsWhole)
    (x0 : Vec F S1x256x64x64 .f32) (x1 : Vec F S1x1x64x64 .f32) (x2 x3 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__apply_kernel i arg1 harg1 arg2 harg2 arg3 harg3 arg4 harg4 arg5 harg5) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and the output's at `out1_4` of the four input blocks; the class invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WKRun.lean ====
import proofs.«152003_j17076789969318_2_alg».proof.Proof.WStatsData
import proofs.«152003_j17076789969318_2_alg».proof.Proof.WApplyBody
import proofs.«152003_j17076789969318_2_alg».proof.Proof.Gen.Kernel.Regions
import proofs.«152003_j17076789969318_2_alg».proof.Proof.Gen.Kernel.Launch
import proofs.«152003_j17076789969318_2_alg».proof.Proof.Gen.Kernel.Skeleton
import proofs.«152003_j17076789969318_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole program's run: two host stretches and two pallas_calls in order

Between two items every unscoped buffer of the core is held whole at the contents the items so far have left:
the launch memory, then each host stretch's operations applied, then after a pallas_call its arrays at what its
write-backs leave and every other buffer as it was. -/

variable (m : (ℓ : Loc nD τ sig) → Buf (Elt F) ℓ) (ρ : Dev nD → PrngReg)

/-- Core c's buffers at launch, -/
abbrev W0 : Dev nD → Valuation τ sig (Elt F) := fun c b => (s₀ m ρ).mem ((c : Dev nD), b)
/-- after the first host stretch (the negated mask as a float), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after the first pallas_call (its two result arrays at the accumulated sums), -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- after the second host stretch (count, mean, variance, scale and shift per channel), -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- and after the second pallas_call (the result array). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What no item changes -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-- x is read by both calls through an input window and written by nothing. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The mask, γ and β are no window's array and no host operation's result. -/
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
/-- The result array is the second call's output window's array. -/
theorem W4_main_v16 (c : Dev nD) : W4 m ρ c (Proc.devRef .tc main_v16) = (dat1 (V3 m ρ) c).arrAt 4 cfg1.N :=
  W4_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two pallas_calls as segments -/

set_option backward.isDefEq.respectTransparency.types false in
/-- The first call: its arrays split out of the unscoped buffers and put back at the exit contents; the generator
    register and the scoped rest into the region's invariant and out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, likewise, with the class's invariant throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched; and the result array ends at what the second call's
    write-backs leave. -/
theorem run_main : θ_run defs (onTc (τ := τ) (main (F := F))) ⟨m, fun _ => 0, ρ⟩ (fun r => ∀ c : Dev nD,
      r.2.mem ((c.tc : Thread nD τ).loc main_v16) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v16 (by decide))).trans (W4_main_v16 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_main m ρ)

end Cert.Kernel.Hand
end
-- ==== Proof.StatsBody.lean ====
import proofs.«152003_j17076789969318_2_alg».proof.Proof.Gen.KernelIdeal.Launch
import proofs.«152003_j17076789969318_2_alg».proof.Proof.Gen.KernelIdeal.Skeleton
import proofs.«152003_j17076789969318_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pallas_call: per-channel masked sums accumulated over the batch

Grid point t handles batch element t.  The body adds, per channel d, the block's masked sum
Σ_{h,w} x[t,d,h,w]·nm[t,h,w] (and the masked sum of squares) to two running vectors kept in scratch; the first
point starts them from zero, the last point copies them to the two result blocks. -/

section Region0

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two conditions of the body, decided over the grid -/

/-- "this is the first grid point" as the body computes it, -/
abbrev cond1 (i : grid0.Coords) : Prop := (Scalar.cmpi .ne (Scalar.extui (Scalar.cmpi .eq (BitVec.ofNat 32 (i 0).val) 0#32)) 0#32) = 1#1
/-- and "this is the last one". -/
abbrev cond2 (i : grid0.Coords) : Prop := k0_cond2 i = 1#1

theorem hcond1 : ∀ t : Fin cfg0.N, cond1 (grid0.coords t) ↔ t.val = 0 :=
  (by decide +kernel : ∀ t : Fin grid0.N, cond1 (grid0.coords t) ↔ t.val = 0)
theorem hcond2 : ∀ t : Fin cfg0.N, cond2 (grid0.coords t) ↔ t.val = 31 :=
  (by decide +kernel : ∀ t : Fin grid0.N, cond2 (grid0.coords t) ↔ t.val = 31)

/-- The inputs are never idle; the two result windows are idle, and not written back, except at the last point. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond2 (grid0.coords t) → cfg0.idle 2 (grid0.coords t) = true := by decide +kernel
theorem idleAt0_3 : ∀ t : Fin cfg0.N, ¬cond2 (grid0.coords t) → cfg0.idle 3 (grid0.coords t) = true := by decide +kernel
theorem noFlush0_2 : ∀ t : Fin cfg0.N, ¬cond2 (grid0.coords t) → (cfg0.win 2).flush t = false := by decide +kernel
theorem noFlush0_3 : ∀ t : Fin cfg0.N, ¬cond2 (grid0.coords t) → (cfg0.win 3).flush t = false := by decide +kernel
theorem liveAt0_2 : ∀ t : Fin cfg0.N, cond2 (grid0.coords t) → cfg0.idle 2 (grid0.coords t) = false := by decide +kernel
theorem liveAt0_3 : ∀ t : Fin cfg0.N, cond2 (grid0.coords t) → cfg0.idle 3 (grid0.coords t) = false := by decide +kernel

/-- The two running vectors' scratch buffers. -/
abbrev scM0 : Memref sig .tc .vmem S256 .f32 := Memref.whole cc0_scratch0
abbrev scM1 : Memref sig .tc .vmem S256 .f32 := Memref.whole cc0_scratch1

theorem hz1 : (![0] : Fin S256.rank → Nat) = fun _ => 0 := by funext a; match a with | ⟨0, _⟩ => rfl
theorem hz4 : (![0, 0, 0, 0] : Fin S1x256x64x64.rank → Nat) = fun _ => 0 := by
  funext a; match a with | ⟨0, _⟩ => rfl | ⟨1, _⟩ => rfl | ⟨2, _⟩ => rfl | ⟨3, _⟩ => rfl
theorem hz4' : (![0, 0, 0, 0] : Fin S1x1x64x64.rank → Nat) = fun _ => 0 := by
  funext a; match a with | ⟨0, _⟩ => rfl | ⟨1, _⟩ => rfl | ⟨2, _⟩ => rfl | ⟨3, _⟩ => rfl

/-- What a whole-buffer store at offset zero, possibly after earlier ones, leaves when read back: its payload, the
    loads inside it read through whole-buffer rectangles as well. -/
theorem cover_head (w : Vec F S256 .f32) (L : List (View.Piece (Elt F) S256 .f32)) (y : S256.Idx) :
    ∃ q ∈ ((⟨Rect.unit (s := S256) ![0] S256.size Gen.inb_S256_S256_0, w⟩ : View.Piece (Elt F) S256 .f32) :: L), y ∈ q.1.set :=
  ⟨_, List.mem_cons_self .., View.mem_set_unit_zero (S := S256) hz1 Gen.inb_S256_S256_0 y⟩

macro "close_store" : tactic => `(tactic| (
  sl_unfold_run_names
  refine (View.read_writes_eq_canon _ _ _ (cover_head _ _)).trans ?_
  rw [View.canon_cons_unit_zero hz1]
  simp only [View.readCov_unit_zero (S := S256) _ hz1, View.readAt_eq_ld, Memref.IsWhole.read_unread, View.ld_unit_zero (S := S256) hz1,
    View.ld_unit_zero (S := S1x256x64x64) hz4, View.ld_unit_zero (S := S1x1x64x64) hz4']))

/-! ## The body's three runs: a middle point, the first point, the last point -/

set_option maxHeartbeats 1000000 in
/-- A middle point: each running vector is replaced by itself plus the block's masked sums; nothing else changes. -/
theorem run_mid (c : Dev nD) (i : grid0.Coords)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S256 .f32) (harg6 : arg6.IsWhole)
    (hc1 : ¬cond1 i) (hc2 : ¬cond2 i)
    (x0 : Vec F S1x256x64x64 .f32) (x1 : Vec F S1x1x64x64 .f32) (d3 d4 s0 s1 : Vec F S256 .f32) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1 ∗ owns (c : Thread nD τ) arg3 fullShare d3 ∗ owns (c : Thread nD τ) arg4 fullShare d4
            ∗ owns (c : Thread nD τ) arg5 fullShare (k0_pay5 x0 x1 s0) ∗ owns (c : Thread nD τ) arg6 fullShare (k0_pay6 x0 x1 s1)) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]
  · iexists _; isplitr
    swap; · iexact H5
    ipureintro
    close_store
  · iexists _; isplitr
    swap; · iexact H6
    ipureintro
    close_store

set_option maxHeartbeats 1000000 in
/-- The first point: the running vectors, whatever they held, are zeroed and then take the block's masked sums. -/
theorem run_first (c : Dev nD) (i : grid0.Coords)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S256 .f32) (harg6 : arg6.IsWhole)
    (hc1 : cond1 i) (hc2 : ¬cond2 i)
    (x0 : Vec F S1x256x64x64 .f32) (x1 : Vec F S1x1x64x64 .f32) (d3 d4 d5 d6 : Vec F S256 .f32) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4
        ∗ owns (c : Thread nD τ) arg5 fullShare d5 ∗ owns (c : Thread nD τ) arg6 fullShare d6
        ∗ (iprop(owns (c : Thread nD τ) arg1 fullShare x0 ∗ owns (c : Thread nD τ) arg2 fullShare x1 ∗ owns (c : Thread nD τ) arg3 fullShare d3 ∗ owns (c : Thread nD τ) arg4 fullShare d4
            ∗ owns (c : Thread nD τ) arg5 fullShare (k0_pay5 x0 x1 (k0_pay1 (F := F))) ∗ owns (c : Thread nD τ) arg6 fullShare (k0_pay6 x0 x1 (k0_pay2 (F := F)))) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]
  · iexists _; isplitr
    swap; · iexact H5
    ipureintro
    close_store
  · iexists _; isplitr
    swap; · iexact H6
    ipureintro
    close_store

set_option maxHeartbeats 1000000 in
/-- The last point: as a middle point, and the two result blocks take the running vectors' new contents. -/
theorem run_last (c : Dev nD) (i : grid0.Coords)
    (arg1 : Memref sig .tc .vmem S1x256x64x64 .f32) (harg1 : arg1.IsWhole) (arg2 : Memref sig .tc .vmem S1x1x64x64 .f32) (harg2 : arg2.IsWhole)
    (arg3 : Memref sig .tc .vmem S256 .f32) (harg3 : arg3.IsWhole) (arg4 : Memref sig .tc .vmem S256 .f32) (harg4 : arg4.IsWhole)
    (arg5 : Memref sig .tc .vmem S256 .f32) (harg5 : arg5.IsWhole) (arg6 : Memref sig .tc .vmem S256 .f32) (harg6 : arg6.IsWhole)
    (hc1 : ¬cond1 i) (hc2 : cond2 i)
    (x0 : Vec F S1x256x64x64 .f32) (x1 : Vec F S1x1x64x64 .f32) (d3 d4 s0 s1 : Vec F S256 .f32) (E : Set ℕ) (K : PUnit → sProp 𝕄) :
    iprop(owns (c : Thread nD τ) arg1 fullShare x0 ∗ owns (c : Thread nD τ) arg2 fullShare x1 ∗ owns (c : Thread nD τ) arg3 fullShare d3 ∗ owns (c : Thread nD τ) arg4 fullShare d4
        ∗ owns (c : Thread nD τ) arg5 fullShare s0 ∗ owns (c : Thread nD τ) arg6 fullShare s1
        ∗ (iprop(owns (c : Thread nD τ) arg1 fullShare x0 ∗ owns (c : Thread nD τ) arg2 fullShare x1
            ∗ owns (c : Thread nD τ) arg3 fullShare (k0_pay5 x0 x1 s0) ∗ owns (c : Thread nD τ) arg4 fullShare (k0_pay6 x0 x1 s1)
            ∗ owns (c : Thread nD τ) arg5 fullShare (k0_pay5 x0 x1 s0) ∗ owns (c : Thread nD τ) arg6 fullShare (k0_pay6 x0 x1 s1)) -∗ K ⟨⟩))
      ⊢ wp frame (wpE (defs₀ (F := F)) Variants.none c none) E (cc0__stats_kernel i arg1 harg1 arg2 harg2 arg3 harg3 arg4 harg4 arg5 harg5 arg6 harg6) K := by
  simp only [cc0__stats_kernel_eq_skeleton]; unfold cc0__stats_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg1.eq_unread hf1; obtain rfl := harg2.eq_unread hf2; obtain rfl := harg3.eq_unread hf3
  obtain rfl := harg4.eq_unread hf4; obtain rfl := harg5.eq_unread hf5; obtain rfl := harg6.eq_unread hf6
  sl_exec (disch := first | exact hc1 | exact hc2)
  sl_step
  iapply Hk
  isplitl [H1]; · iexists _; isplitr; · ipureintro; exact harg1.read_unread _
                  iexact H1
  isplitl [H2]; · iexists _; isplitr; · ipureintro; exact harg2.read_unread _
                  iexact H2
  isplitl [H3]
  · iexists _; isplitr
    swap; · iexact H3
    ipureintro
    close_store
  isplitl [H4]
  · iexists _; isplitr
    swap; · iexact H4
    ipureintro
    close_store
  isplitl [H5]
  · iexists _; isplitr
    swap; · iexact H5
    ipureintro
    close_store
  · iexists _; isplitr
    swap; · iexact H6
    ipureintro
    close_store

end Cert.KernelIdeal.Hand
end
-- ==== Proof.StatsData.lean ====
import proofs.«152003_j17076789969318_2_alg».proof.Proof.StatsBody
import proofs.«152003_j17076789969318_2_alg».proof.Proof.Gen.KernelIdeal.Launch
import proofs.«152003_j17076789969318_2_alg».proof.Proof.Gen.KernelIdeal.Skeleton
import proofs.«152003_j17076789969318_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first pallas_call's proof data: the running sums point by point -/

section Region0

variable (V : (c : Dev nD) → (b : Ref sig .tc) → Buf (Elt F) ((c : Thread nD τ).loc b))

/-- The running masked sum after point n: the first point starts from the zero vector, every later point adds
    its block's masked sums to what the point before left. -/
def acc0 (c : Dev nD) : (n : ℕ) → n < cfg0.N → Vec F S256 .f32
  | 0, h => k0_pay5 (iblk0 V c 0 ⟨0, h⟩) (iblk0 V c 1 ⟨0, h⟩) (k0_pay1 (F := F))
  | n + 1, h => k0_pay5 (iblk0 V c 0 ⟨n + 1, h⟩) (iblk0 V c 1 ⟨n + 1, h⟩) (acc0 c n (Nat.lt_of_succ_lt h))
/-- The running masked sum of squares after point n, likewise. -/
def acc1 (c : Dev nD) : (n : ℕ) → n < cfg0.N → Vec F S256 .f32
  | 0, h => k0_pay6 (iblk0 V c 0 ⟨0, h⟩) (iblk0 V c 1 ⟨0, h⟩) (k0_pay2 (F := F))
  | n + 1, h => k0_pay6 (iblk0 V c 0 ⟨n + 1, h⟩) (iblk0 V c 1 ⟨n + 1, h⟩) (acc1 c n (Nat.lt_of_succ_lt h))

theorem acc0_zero (c : Dev nD) (t : Fin cfg0.N) (hz : t.val = 0) :
    acc0 V c t.val t.isLt = k0_pay5 (iblk0 V c 0 t) (iblk0 V c 1 t) (k0_pay1 (F := F)) := by
  obtain ⟨n, hn⟩ := t
  cases n with
  | zero => rfl
  | succ n => exact absurd hz (Nat.succ_ne_zero _)
theorem acc0_pos (c : Dev nD) (t : Fin cfg0.N) (hz : t.val ≠ 0) :
    acc0 V c t.val t.isLt = k0_pay5 (iblk0 V c 0 t) (iblk0 V c 1 t) (acc0 V c (t.val - 1) (Nat.lt_of_le_of_lt (Nat.sub_le _ _) t.isLt)) := by
  obtain ⟨n, hn⟩ := t
  cases n with
  | zero => exact absurd rfl hz
  | succ n => rfl
theorem acc1_zero (c : Dev nD) (t : Fin cfg0.N) (hz : t.val = 0) :
    acc1 V c t.val t.isLt = k0_pay6 (iblk0 V c 0 t) (iblk0 V c 1 t) (k0_pay2 (F := F)) := by
  obtain ⟨n, hn⟩ := t
  cases n with
  | zero => rfl
  | succ n => exact absurd hz (Nat.succ_ne_zero _)
theorem acc1_pos (c : Dev nD) (t : Fin cfg0.N) (hz : t.val ≠ 0) :
    acc1 V c t.val t.isLt = k0_pay6 (iblk0 V c 0 t) (iblk0 V c 1 t) (acc1 V c (t.val - 1) (Nat.lt_of_le_of_lt (Nat.sub_le _ _) t.isLt)) := by
  obtain ⟨n, hn⟩ := t
  cases n with
  | zero => exact absurd rfl hz
  | succ n => rfl

end Region0

/-- The scoped buffers of the core that are neither staging buffers of this call nor its two scratch vectors:
    the second call's staging buffers, each at some contents. -/
def Rest8 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class's region invariant with the two scratch vectors named. -/
theorem PhiA0_eq (c : Dev nD) :
    (Pipeline.ΦA spec0 c : sProp 𝕄)
      = iprop(((∃ d, owns (c : Thread nD τ) scM0 fullShare d) ∗ (∃ d, owns (c : Thread nD τ) scM1 fullShare d) ∗ Rest8 (F := F) c) ∗ (∃ r, prngReg c r)) := by
  unfold Pipeline.ΦA Rest8; rw [scopedRest0_eq]; simp only [scM0, scM1, owns_whole]; try rfl

section Region0

variable (V : (c : Dev nD) → (b : Ref sig .tc) → Buf (Elt F) ((c : Thread nD τ).loc b))

/-- The region invariant before position n: before the first point the class's (every scratch at anything);
    afterwards the two scratch vectors at the running sums the point before left. -/
def PhiS (c : Dev nD) : (n : ℕ) → n ≤ cfg0.N → sProp 𝕄
  | 0, _ => Pipeline.ΦA spec0 c
  | n + 1, hn => iprop((owns (c : Thread nD τ) scM0 fullShare (acc0 V c n hn) ∗ owns (c : Thread nD τ) scM1 fullShare (acc1 V c n hn) ∗ Rest8 (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare (acc0 V c n hn) ∗ owns (c : Thread nD τ) scM1 fullShare (acc1 V c n hn) ∗ Rest8 (F := F) c) ∗ (∃ r, prngReg c r)) := rfl
theorem PhiS_pos (c : Dev nD) (n : ℕ) (h : n ≤ cfg0.N) (hz : n ≠ 0) :
    PhiS V c n h = iprop((owns (c : Thread nD τ) scM0 fullShare (acc0 V c (n - 1) (by omega)) ∗ owns (c : Thread nD τ) scM1 fullShare (acc1 V c (n - 1) (by omega)) ∗ Rest8 (F := F) c) ∗ (∃ r, prngReg c r)) := by
  cases n with
  | zero => exact absurd rfl hz
  | succ n => rfl

/-- The proof data: the arrays as the region finds them; after the body each input's buffer at its block, the
    two result buffers at the running sums (read only at the last point, where the body copies them there). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
    | ⟨3, _⟩ => acc1 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem after0_3 (c : Dev nD) (t : Fin cfg0.N) : (dat0 V c).after 3 t = acc1 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4000000 in
/-- The body at any point: the first point starts the running sums, a middle point adds to them, the last point
    adds and copies them to the result blocks; the invariant hands the scratch over at what the point before left
    and takes it back at this point's sums. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 32 := lt_of_lt_of_eq t.isLt (show cfg0.N = 32 from N_0)
  by_cases h2 : t.val = 31
  · have hc2 : cond2 (grid0.coords t) := (hcond2 t).mpr h2
    have hc1 : ¬cond1 (grid0.coords t) := fun h => by have := (hcond1 t).mp h; omega
    have hz : t.val ≠ 0 := by omega
    rw [show (dat0 V c).leavesExact 2 t = owns (c : Thread nD τ) (st0_2 t) fullShare ((dat0 V c).after 2 t) from by
      unfold Dat.leavesExact; rw [liveAt0_2 t hc2], after0_2]
    rw [show (dat0 V c).leavesExact 3 t = owns (c : Thread nD τ) (st0_3 t) fullShare ((dat0 V c).after 3 t) from by
      unfold Dat.leavesExact; rw [liveAt0_3 t hc2], after0_3]
    rw [acc0_pos V c t hz, acc1_pos V c t hz, PhiS_castSucc V c t, PhiS_pos V c _ _ hz]
    iintro ⟨⟨⟨HS0, HS1, HR⟩, Hg⟩, Ho, ⟨%d0, H0⟩, ⟨%d1, H1⟩, ⟨%d2, H2⟩, ⟨%d3, H3⟩⟩
    iapply (run_last c (grid0.coords t) _ _ _ _ _ _ _ _ _ _ _ _ hc1 hc2 (iblk0 V c 0 t) (iblk0 V c 1 t) _ _ _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    iexact H3
  · have hc2 : ¬cond2 (grid0.coords t) := fun h => h2 ((hcond2 t).mp h)
    rw [Dat.leavesExact_idle (dat0 V c) 2 t (idleAt0_2 t hc2) (noFlush0_2 t hc2),
      Dat.leavesExact_idle (dat0 V c) 3 t (idleAt0_3 t hc2) (noFlush0_3 t hc2)]
    by_cases hz : t.val = 0
    · have hc1 : cond1 (grid0.coords t) := (hcond1 t).mpr hz
      rw [acc0_zero V c t hz, acc1_zero V c t hz, PhiS_castSucc V c t, PhiS_zero V c _ _ hz, PhiA0_eq]
      iintro ⟨⟨⟨⟨%e0, HS0⟩, ⟨%e1, HS1⟩, HR⟩, Hg⟩, Ho, ⟨%d0, H0⟩, ⟨%d1, H1⟩, ⟨%d2, H2⟩, ⟨%d3, H3⟩⟩
      iapply (run_first c (grid0.coords t) _ _ _ _ _ _ _ _ _ _ _ _ hc1 hc2 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexists _; iexact H2
      iexists _; iexact H3
    · have hc1 : ¬cond1 (grid0.coords t) := fun h => hz ((hcond1 t).mp h)
      rw [acc0_pos V c t hz, acc1_pos V c t hz, PhiS_castSucc V c t, PhiS_pos V c _ _ hz]
      iintro ⟨⟨⟨HS0, HS1, HR⟩, Hg⟩, Ho, ⟨%d0, H0⟩, ⟨%d1, H1⟩, ⟨%d2, H2⟩, ⟨%d3, H3⟩⟩
      iapply (run_mid c (grid0.coords t) _ _ _ _ _ _ _ _ _ _ _ _ hc1 hc2 (iblk0 V c 0 t) (iblk0 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point; -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _
/-- and after the last point the invariant gives it back, the running sums' names forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, HS1, HR⟩, Hg⟩
  isplitl [HS0 HS1 HR]
  · isplitl [HS0]; · iexists _; iexact HS0
    isplitl [HS1]; · iexists _; iexact HS1
    iexact HR
  iexact Hg

end Region0

end Cert.KernelIdeal.Hand
end
-- ==== Proof.ApplyBody.lean ====
/-
  Region 1 of the idealized kernel program: the second pallas_call, `cc1__apply_kernel`, on a grid of 32 points
  (one per batch index). Its five windows are the activation block [1,256,64,64], the mask block [1,1,64,64], the
  per-channel scale and shift vectors [256] (fetched once, at the first point), and the output block [1,256,64,64]
  written back at every point.

  Everything here is stated at a PARAMETER `V`: the TensorCore's buffer contents when the region is entered.
  * `iblk1`  — a window's block at a grid point, read off its array as the region finds it;
  * `out1_4` — what the body leaves in the output window's staging buffer: its one store, over the whole block,
                of the body's arithmetic applied to what it loaded from the four input buffers;
  * `sound_kernel1` — the body's triple: inputs held at their read contents, the output buffer at anything
                (the body loads it once, without using the value, before it overwrites it);
  * `dat1`   — the pipeline's proof data: each input buffer keeps its block, the output buffer holds `out1_4` of
                the four input blocks; nothing owed, full shares, the class invariant;
  * `body_obligation1` — the library's body obligation at every point.
-/
import proofs.«152003_j17076789969318_2_alg».proof.Proof.Gen.KernelIdeal.Launch
import proofs.«152003_j17076789969318_2_alg».proof.Proof.Gen.KernelIdeal.Skeleton
import proofs.«152003_j17076789969318_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where the pipeline does not fetch, the
    block index has not moved, so the block kept from the point before is this point's. Window 0 (activations). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the mask). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the scale vector; fetched at the first point only, its block index constant). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Window 3 (the shift vector; fetched at the first point only, its block index constant). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole staging buffer -/

/-- The whole activation / output block. -/
abbrev r1_x : Rect S1x256x64x64 := Rect.unit (s := S1x256x64x64) ![0, 0, 0, 0] S1x256x64x64.size inb_S1x256x64x64_S1x256x64x64_0_0_0_0
/-- The whole mask block. -/
abbrev r1_m : Rect S1x1x64x64 := Rect.unit (s := S1x1x64x64) ![0, 0, 0, 0] S1x1x64x64.size inb_S1x1x64x64_S1x1x64x64_0_0_0_0
/-- The whole per-channel vector. -/
abbrev r1_c : Rect S256 := Rect.unit (s := S256) ![0] S256.size inb_S256_S256_0

/-! ## What the body leaves in the output window's buffer -/

/-- Window 4's staging buffer after the body, from the four input windows' blocks: its one store, over the whole
    block, of the body's arithmetic on what the four loads read. -/
def out1_4 (x0 : Vec F S1x256x64x64 .f32) (x1 : Vec F S1x1x64x64 .f32) (x2 x3 : Vec F S256 .f32) : Vec F S1x256x64x64 .f32 :=
  View.canon [⟨r1_x, k1_pay1 (View.ld x0 r1_x) (View.ld x1 r1_m) (View.ld x2 r1_c) (View.ld x3 r1_c)⟩]

/-- The one store is over the whole buffer, so it covers it. -/
theorem cover1_4 (p0 : Vec F S1x256x64x64 .f32) (y : S1x256x64x64.Idx) :
    ∃ pc ∈ ([⟨r1_x, p0⟩] : List (View.Piece (Elt F) S1x256x64x64 .f32)), y ∈ pc.1.set :=
  View.cover_of_tiled [⟨r1_x, p0⟩] S1x256x64x64.size (by rfl) y

/-! ## The body's triple -/

set_option maxHeartbeats 1000000 in
/-- The kernel body on whole staging memrefs — the four inputs' at read contents `x0 … x3`, the output's at
    anything — runs to the continuation holding the inputs' as they were and the output's at `out1_4` of the
    inputs'. The body's load of the output buffer before its store reads whatever is there and is not used. -/
theorem sound_kernel1 (c : Dev nD) (E : Set ℕ) (i : grid1.Coords)
    (arg1 : Memref sig .tc .vmem S1x256x64x64 .f32) (harg1 : arg1.IsWhole)
    (arg2 : Memref sig .tc .vmem S1x1x64x64 .f32) (harg2 : arg2.IsWhole)
    (arg3 : Memref sig .tc .vmem S256 .f32) (harg3 : arg3.IsWhole)
    (arg4 : Memref sig .tc .vmem S256 .f32) (harg4 : arg4.IsWhole)
    (arg5 : Memref sig .tc .vmem S1x256x64x64 .f32) (harg5 : arg5.IsWhole)
    (x0 : Vec F S1x256x64x64 .f32) (x1 : Vec F S1x1x64x64 .f32) (x2 x3 : Vec F S256 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E (cc1__apply_kernel i arg1 harg1 arg2 harg2 arg3 harg3 arg4 harg4 arg5 harg5) K := by
  simp only [cc1__apply_kernel_eq_skeleton]; unfold cc1__apply_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point
    `t` each input's buffer at its block and the output's at `out1_4` of the four input blocks; the class invariant
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`: the invariant, the core's debts, and each window's current staging
    buffer at what the pipeline left there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
import proofs.«152003_j17076789969318_2_alg».proof.Proof.StatsData
import proofs.«152003_j17076789969318_2_alg».proof.Proof.ApplyBody
import proofs.«152003_j17076789969318_2_alg».proof.Proof.Gen.KernelIdeal.Regions
import proofs.«152003_j17076789969318_2_alg».proof.Proof.Gen.KernelIdeal.Launch
import proofs.«152003_j17076789969318_2_alg».proof.Proof.Gen.KernelIdeal.Skeleton
import proofs.«152003_j17076789969318_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole program's run: two host stretches and two pallas_calls in order

Between two items every unscoped buffer of the core is held whole at the contents the items so far have left:
the launch memory, then each host stretch's operations applied, then after a pallas_call its arrays at what its
write-backs leave and every other buffer as it was. -/

variable (m : (ℓ : Loc nD τ sig) → Buf (Elt F) ℓ) (ρ : Dev nD → PrngReg)

/-- Core c's buffers at launch, -/
abbrev W0 : Dev nD → Valuation τ sig (Elt F) := fun c b => (s₀ m ρ).mem ((c : Dev nD), b)
/-- after the first host stretch (the negated mask as a float), -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- after the first pallas_call (its two result arrays at the accumulated sums), -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- after the second host stretch (count, mean, variance, scale and shift per channel), -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- and after the second pallas_call (the result array). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What no item changes -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-- x is read by both calls through an input window and written by nothing. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
/-- The mask, γ and β are no window's array and no host operation's result. -/
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl
/-- The result array is the second call's output window's array. -/
theorem W4_main_v16 (c : Dev nD) : W4 m ρ c (Proc.devRef .tc main_v16) = (dat1 (V3 m ρ) c).arrAt 4 cfg1.N :=
  W4_arr m ρ c 4

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The two pallas_calls as segments -/

set_option backward.isDefEq.respectTransparency.types false in
/-- The first call: its arrays split out of the unscoped buffers and put back at the exit contents; the generator
    register and the scoped rest into the region's invariant and out; nothing owed; no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
          ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call, likewise, with the class's invariant throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched; and the result array ends at what the second call's
    write-backs leave. -/
theorem run_main : θ_run defs (onTc (τ := τ) (main (F := F))) ⟨m, fun _ => 0, ρ⟩ (fun r => ∀ c : Dev nD,
      r.2.mem ((c.tc : Thread nD τ).loc main_v16) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v16 (by decide))).trans (W4_main_v16 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => (h c).2) (run_main m ρ)

end Cert.KernelIdeal.Hand
end
-- ==== Proof.Spec.lean ====
/-
  The masked batch normalisation as ONE function of the four argument arrays, index by index, on the extended
  reals.  x : [32, 256, 64, 64] values, mk : [32, 1, 64, 64] mask bits (1 = excluded), γ β : [256] per-channel
  scale and offset.  With nm = 1 − mask (0 or 1), N = Σ nm, and per channel d
      S₁ d = Σ_{b,h,w} x·nm,   S₂ d = Σ_{b,h,w} x·(x·nm),
      mean d = S₁ d / N,   var d = S₂ d / N − mean d · mean d,   inv d = γ d / √(var d + ε),
      shift d = β d − mean d · inv d,
  the result at (b, d, h, w) is  x + nm·(x·(inv d − 1) + shift d):  x itself where the mask excludes the pixel,
  (x − mean d)·inv d + β d where it does not.
-/
import Idealize.ShloMosaic.PureOps.Ideal
import Idealize.ShloMosaic.Lib.ValueIdx

noncomputable section

namespace Cert.Spec

open Idealize.ShloMosaic Idealize.ShloMosaic.ValueIdx

/-- The shapes of the four arguments (and of the result, which has x's). -/
abbrev SX : Shape := ⟨4, ![32, 256, 64, 64]⟩
abbrev SM : Shape := ⟨4, ![32, 1, 64, 64]⟩
abbrev SC : Shape := ⟨1, ![256]⟩

variable (x : FVec Ideal SX .f32) (mk : IVec SM 1) (γ β : FVec Ideal SC .f32)

/-- The indicator of the pixels that are NOT masked out, as both programs compute it: the negated mask bit
    read as a number (0 or 1). -/
def nm : FVec Ideal SM .f32 := uitofp .f32 (noti mk)

/-- How many pixels are not masked out. -/
def cnt : EReal := ∑ i : SM.Idx, nm mk i

/-- The masked sum and the masked sum of squares of channel d over batch, rows and columns. -/
def s1 (d : Fin 256) : EReal :=
  ∑ b : Fin 32, ∑ h : Fin 64, ∑ w : Fin 64, x (ix4 b d h w) * nm mk (ix4 b 0 h w)
def s2 (d : Fin 256) : EReal :=
  ∑ b : Fin 32, ∑ h : Fin 64, ∑ w : Fin 64, x (ix4 b d h w) * (x (ix4 b d h w) * nm mk (ix4 b 0 h w))

def mean (d : Fin 256) : EReal := Ideal.div (s1 x mk d) (cnt mk)
def var (d : Fin 256) : EReal := Ideal.div (s2 x mk d) (cnt mk) - mean x mk d * mean x mk d
/-- The stabiliser, the f32 nearest to 1e-5, kept as its word. -/
def eps : EReal := Ideal.ofBits .f32 0x3727C5AC#32
def inv (d : Fin 256) : EReal := Ideal.div (γ (ix1 d)) (Ideal.sqrt (var x mk d + eps))
def shift (d : Fin 256) : EReal := β (ix1 d) - mean x mk d * inv x mk γ d

/-- The result at (b, d, h, w). -/
def koutAt (b : Fin 32) (d : Fin 256) (h w : Fin 64) : EReal :=
  x (ix4 b d h w) + nm mk (ix4 b 0 h w)
    * (x (ix4 b d h w) * (inv x mk γ d - Ideal.ofBits .f32 0x3F800000#32) + shift x mk γ β d)

/-- The result array. -/
def kout : FVec Ideal SX .f32 := fun i => koutAt x mk γ β (i 0) (i 1) (i 2) (i 3)

theorem kout_ix4 (b : Fin 32) (d : Fin 256) (h w : Fin 64) :
    kout x mk γ β (ix4 b d h w) = koutAt x mk γ β b d h w := rfl

end Cert.Spec

end
-- ==== Proof.LibCount.lean ====
/-
  The total of a [32, 1, 64, 64] array on the extended reals: the host's sum over all four axes from the zero word
  is the plain sum over every index.
-/
import Idealize.ShloMosaic.PureOps.Ideal.Laws
import Idealize.ShloMosaic.Lib.ValueIdx
import proofs.«152003_j17076789969318_2_alg».proof.Proof.Spec

noncomputable section

namespace Cert.Lib

open Idealize.ShloMosaic Idealize.ShloMosaic.ValueIdx

/-- The sum over every axis, started at the zero word, is the sum over every index. -/
theorem count_total (v : FVec Ideal Cert.Spec.SM .f32)
    (h : Cert.Spec.SM.ReducesTo [0, 1, 2, 3] ⟨0, ![]⟩) (h' : 0 < (⟨0, ![]⟩ : Shape).numel)
    (i : (⟨0, ![]⟩ : Shape).Idx) :
    Host.reduceAdd (F := Ideal) v (constant ⟨0, ![]⟩ .f32 0x00000000#32) h h' i = ∑ j : Cert.Spec.SM.Idx, v j := by
  simp only [Host.reduceAdd, Ideal.hostReduceAdd_def]
  rw [Ideal.hostReduceAdd_total h (fun b => b.elim0) v _ i, constant_apply, Ideal.ofBits_zero_f32, zero_add]

end Cert.Lib

end
-- ==== Proof.KHost.lean ====
import proofs.«152003_j17076789969318_2_alg».proof.Proof.KRun
import proofs.«152003_j17076789969318_2_alg».proof.Proof.LibCount
import proofs.«152003_j17076789969318_2_alg».proof.Proof.Gen.KernelIdeal.Launch
import Idealize.ShloMosaic.Lib.StableHlo.Run
import Idealize.ShloMosaic.Lib.ValueIdx
import proofs.«152003_j17076789969318_2_alg».proof.Proof.Gen.KernelIdeal.Skeleton
import proofs.«152003_j17076789969318_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The host operations between the two pallas_calls, as functions of the accumulated sums

From the two per-channel sums S₁, S₂, the indicator nm and γ, β the host computes the count N = Σ nm, the mean
S₁/N, the variance S₂/N − mean², the scale γ/√(variance + ε) and the shift β − mean·scale. -/

section Host

/-- N, as a scalar array, and spread over the channels; -/
def hostCount (NM : Vec F S32x1x64x64 .f32) : Vec F S_ .f32 :=
  Host.reduceAdd NM (constant S_ .f32 0x00000000#32) reducesTo_S32x1x64x64_S_d0_1_2_3 h_S_
def hostCountB (NM : Vec F S32x1x64x64 .f32) : Vec F S256 .f32 :=
  broadcastInDim S256 ![] bcast_S_S256 (hostCount NM)
/-- the mean; -/
def hostMean (S1 : Vec F S256 .f32) (NM : Vec F S32x1x64x64 .f32) : Vec F S256 .f32 := Host.divf S1 (hostCountB NM)
/-- the variance plus ε; -/
def hostVarEps (S1 S2 : Vec F S256 .f32) (NM : Vec F S32x1x64x64 .f32) : Vec F S256 .f32 :=
  addf (subf (Host.divf S2 (hostCountB NM)) (mulf (hostMean S1 NM) (hostMean S1 NM)))
    (broadcastInDim S256 ![] bcast_S_S256 (constant S_ .f32 0x3727C5AC#32))
/-- the scale and the shift. -/
def hostScale (γ S1 S2 : Vec F S256 .f32) (NM : Vec F S32x1x64x64 .f32) : Vec F S256 .f32 :=
  Host.divf γ (Host.sqrt (hostVarEps S1 S2 NM))
def hostShift (γ β S1 S2 : Vec F S256 .f32) (NM : Vec F S32x1x64x64 .f32) : Vec F S256 .f32 :=
  subf β (mulf (hostMean S1 NM) (hostScale γ S1 S2 NM))

variable (m : (ℓ : Loc nD τ sig) → Buf (Elt F) ℓ) (ρ : Dev nD → PrngReg)

/-- What the first host stretch leaves: the indicator. -/
theorem W1_main_v1 (c : Dev nD) : W1 m ρ c (Proc.devRef .tc main_v1) = uitofp .f32 (noti (m ((c : Thread nD τ).loc main_arg1))) := by
  show StableHlo.after hostOps0 (W0 m ρ c) (Proc.devRef .tc main_v1) = _
  after_results

/-- What the second host stretch leaves in the scale's and the shift's buffers. -/
theorem W3_main_v13 (c : Dev nD) : W3 m ρ c (Proc.devRef .tc main_v13)
    = hostScale (W2 m ρ c (Proc.devRef .tc main_arg2)) (W2 m ρ c (Proc.devRef .tc main_v2_0)) (W2 m ρ c (Proc.devRef .tc main_v2_1)) (W2 m ρ c (Proc.devRef .tc main_v1)) := by
  show StableHlo.after hostOps1 (W2 m ρ c) (Proc.devRef .tc main_v13) = _
  after_results
  rfl
theorem W3_main_v15 (c : Dev nD) : W3 m ρ c (Proc.devRef .tc main_v15)
    = hostShift (W2 m ρ c (Proc.devRef .tc main_arg2)) (W2 m ρ c (Proc.devRef .tc main_arg3)) (W2 m ρ c (Proc.devRef .tc main_v2_0)) (W2 m ρ c (Proc.devRef .tc main_v2_1)) (W2 m ρ c (Proc.devRef .tc main_v1)) := by
  show StableHlo.after hostOps1 (W2 m ρ c) (Proc.devRef .tc main_v15) = _
  after_results
  rfl

/-- The buffers the first call and the second host stretch leave alone. -/
theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans ((W1_of m ρ c main_arg0 (by decide)).trans rfl)
theorem W2_main_v1 (c : Dev nD) : W2 m ρ c (Proc.devRef .tc main_v1) = uitofp .f32 (noti (m ((c : Thread nD τ).loc main_arg1))) :=
  ((W2_arr m ρ c 1).trans (((dat0 (V1 m ρ) c).arrAt_in 1 rfl _).trans (A_eq0 (V1 m ρ) c 1))).trans (W1_main_v1 m ρ c)
theorem W2_main_arg2 (c : Dev nD) : W2 m ρ c (Proc.devRef .tc main_arg2) = m ((c : Thread nD τ).loc main_arg2) :=
  (W2_of_ne m ρ c main_arg2 (by decide)).trans ((W1_of m ρ c main_arg2 (by decide)).trans rfl)
theorem W2_main_arg3 (c : Dev nD) : W2 m ρ c (Proc.devRef .tc main_arg3) = m ((c : Thread nD τ).loc main_arg3) :=
  (W2_of_ne m ρ c main_arg3 (by decide)).trans ((W1_of m ρ c main_arg3 (by decide)).trans rfl)
theorem W3_main_arg0 (c : Dev nD) : W3 m ρ c (Proc.devRef .tc main_arg0) = m ((c : Thread nD τ).loc main_arg0) :=
  (W3_of m ρ c main_arg0 (by decide)).trans (W2_main_arg0 m ρ c)
theorem W3_main_v1 (c : Dev nD) : W3 m ρ c (Proc.devRef .tc main_v1) = uitofp .f32 (noti (m ((c : Thread nD τ).loc main_arg1))) :=
  (W3_of m ρ c main_v1 (by decide)).trans (W2_main_v1 m ρ c)

end Host

/-! ## The same, entry by entry, on the extended reals -/

section AtIdeal

open Idealize.ShloMosaic.ValueIdx

theorem hostCountB_apply (NM : FVec Ideal S32x1x64x64 .f32) (i : S256.Idx) : hostCountB (F := Ideal) NM i = ∑ j : S32x1x64x64.Idx, NM j := by
  unfold hostCountB
  generalize hc : hostCount (F := Ideal) NM = y
  rw [broadcastInDim_apply _ bcast_S_S256 y i (fun a => a.elim0) (fun a => a.elim0)]
  subst hc
  exact Cert.Lib.count_total NM _ _ _

theorem hostMean_apply (S1 : FVec Ideal S256 .f32) (NM : FVec Ideal S32x1x64x64 .f32) (i : S256.Idx) :
    hostMean (F := Ideal) S1 NM i = Ideal.div (S1 i) (∑ j : S32x1x64x64.Idx, NM j) := by
  show FloatOps.hostDivf (S1 i) (hostCountB (F := Ideal) NM i) = _
  rw [hostCountB_apply, Ideal.hostDivf_def]

theorem hostVarEps_apply (S1 S2 : FVec Ideal S256 .f32) (NM : FVec Ideal S32x1x64x64 .f32) (i : S256.Idx) :
    hostVarEps (F := Ideal) S1 S2 NM i
      = Ideal.div (S2 i) (∑ j : S32x1x64x64.Idx, NM j)
          - Ideal.div (S1 i) (∑ j : S32x1x64x64.Idx, NM j) * Ideal.div (S1 i) (∑ j : S32x1x64x64.Idx, NM j)
          + Ideal.ofBits .f32 0x3727C5AC#32 := by
  show FloatOps.addf (FloatOps.subf (FloatOps.hostDivf (S2 i) (hostCountB (F := Ideal) NM i))
      (FloatOps.mulf (hostMean (F := Ideal) S1 NM i) (hostMean (F := Ideal) S1 NM i)))
      (broadcastInDim S256 ![] bcast_S_S256 (constant (F := Ideal) S_ .f32 0x3727C5AC#32) i) = _
  rw [hostCountB_apply, hostMean_apply,
    broadcastInDim_apply _ bcast_S_S256 (constant (F := Ideal) S_ .f32 0x3727C5AC#32) i (fun a => a.elim0) (fun a => a.elim0)]
  simp only [Ideal.hostDivf_def, Ideal.addf_def, Ideal.subf_def, Ideal.mulf_def]
  rfl

theorem hostScale_apply (γ S1 S2 : FVec Ideal S256 .f32) (NM : FVec Ideal S32x1x64x64 .f32) (i : S256.Idx) :
    hostScale (F := Ideal) γ S1 S2 NM i = Ideal.div (γ i) (Ideal.sqrt (hostVarEps (F := Ideal) S1 S2 NM i)) := by
  show FloatOps.hostDivf (γ i) (FloatOps.hostUnary .sqrt (hostVarEps (F := Ideal) S1 S2 NM i)) = _
  rw [Ideal.hostDivf_def, Ideal.hostUnary_sqrt_def]

theorem hostShift_apply (γ β S1 S2 : FVec Ideal S256 .f32) (NM : FVec Ideal S32x1x64x64 .f32) (i : S256.Idx) :
    hostShift (F := Ideal) γ β S1 S2 NM i = β i - hostMean (F := Ideal) S1 NM i * hostScale (F := Ideal) γ S1 S2 NM i := by
  show FloatOps.subf (β i) (FloatOps.mulf (hostMean (F := Ideal) S1 NM i) (hostScale (F := Ideal) γ S1 S2 NM i)) = _
  rw [Ideal.subf_def, Ideal.mulf_def]

end AtIdeal

end Cert.KernelIdeal.Hand
end
-- ==== Proof.ApplyValue.lean ====
/-
  What region 1 (the second pallas_call, `cc1__apply_kernel`) leaves in its output array, index by index, at the
  exact extended reals.

  The body's arithmetic at channel `d`, row `h`, column `w` of batch `b` is

      x + nm * (x * (scale d - 1) + shift d)

  with `x` the activation at `(b, d, h, w)`, `nm` the mask at `(b, 0, h, w)`, `scale` and `shift` the per-channel
  vectors; the literal `1` is kept as the word the program prints. The steps:
  * the layout operations of the payload read at an index (the activations lose their leading unit axis, the mask its
    two unit axes and is repeated over the channels, each per-channel vector is repeated over rows and columns);
  * the payload at an index;
  * each input window's block at point `t` read off its array: batch `t` of the activations and of the mask, the
    whole scale and shift vectors;
  * what point `t` writes back is batch `t` of one whole-array function, and the 32 batches cover the array.
-/
import proofs.«152003_j17076789969318_2_alg».proof.Proof.ApplyBody
import Idealize.ShloMosaic.Lib.Pipeline.Value
import Idealize.ShloMosaic.Lib.ValueLayout
import Idealize.ShloMosaic.Lib.ValueIdx

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

/-! ## The layout operations of the payload, read at an index -/

/-- The activation block without its leading unit axis: `(d, h, w)` reads `(0, d, h, w)`. -/
theorem dropBatch_apply (x0 : Vec Ideal S1x256x64x64 .f32) (d : Fin 256) (h w : Fin 64) :
    (shapeCast S256x64x64 x0 shapeCasts_S1x256x64x64_S256x64x64 : FVec Ideal S256x64x64 .f32) (ix3 d h w)
      = x0 (ix4 (0 : Fin 1) d h w) :=
  shapeCast_1abc_abc_apply x0 shapeCasts_S1x256x64x64_S256x64x64 d h w

/-- The mask block without its two unit axes: `(h, w)` reads `(0, 0, h, w)`. -/
theorem maskPlane_apply (x1 : Vec Ideal S1x1x64x64 .f32) (h w : Fin 64) :
    (shapeCast S64x64 x1 shapeCasts_S1x1x64x64_S64x64 : FVec Ideal S64x64 .f32) (ix2 h w)
      = x1 (ix4 (0 : Fin 1) (0 : Fin 1) h w) :=
  shapeCast_apply x1 shapeCasts_S1x1x64x64_S64x64 (ix2 h w) (ix4 (0 : Fin 1) (0 : Fin 1) h w) (by
    rw [Shape.rowMajor_val_four, Shape.rowMajor_val_two]
    show ((0 * 1 + 0) * 64 + h.val) * 64 + w.val = h.val * 64 + w.val
    omega)

/-- The mask plane repeated over the 256 channels: `(d, h, w)` reads the mask at `(0, 0, h, w)`. -/
theorem maskBcast_apply (x1 : Vec Ideal S1x1x64x64 .f32) (d : Fin 256) (h w : Fin 64) :
    (broadcastTo S256x64x64
        (shapeCast S1x64x64
          (shapeCast S1x64x64 (shapeCast S64x64 x1 shapeCasts_S1x1x64x64_S64x64 : FVec Ideal S64x64 .f32) shapeCasts_S64x64_S1x64x64 : FVec Ideal S1x64x64 .f32)
          shapeCasts_S1x64x64_S1x64x64 : FVec Ideal S1x64x64 .f32)
        broadcasts_S1x64x64_S256x64x64 : FVec Ideal S256x64x64 .f32) (ix3 d h w)
      = x1 (ix4 (0 : Fin 1) (0 : Fin 1) h w) := by
  rw [shapeCast_self]
  refine (broadcastTo_apply _ broadcasts_S1x64x64_S256x64x64 (ix3 d h w) (ix3 (0 : Fin 1) h w) fun a => ?_).trans ?_
  · match a with
    | ⟨0, _⟩ => rfl
    | ⟨1, _⟩ => rfl
    | ⟨2, _⟩ => rfl
  · exact (shapeCast_ab_1ab_apply _ shapeCasts_S64x64_S1x64x64 (0 : Fin 1) h w).trans (maskPlane_apply x1 h w)

/-- A per-channel vector as a column `[256, 1, 1]`: `(d, 0, 0)` reads `d`. -/
theorem chanColumn_apply (x : Vec Ideal S256 .f32) (d : Fin 256) :
    (shapeCast S256x1x1 x shapeCasts_S256_S256x1x1 : FVec Ideal S256x1x1 .f32) (ix3 d (0 : Fin 1) (0 : Fin 1))
      = x (ix1 d) :=
  shapeCast_apply x shapeCasts_S256_S256x1x1 (ix3 d (0 : Fin 1) (0 : Fin 1)) (ix1 d) (by
    rw [Shape.rowMajor_val_three, Shape.rowMajor_val_one]
    show d.val = (d.val * 1 + 0) * 1 + 0
    omega)

/-- A per-channel vector repeated over rows and columns: `(d, h, w)` reads the vector at `d`. -/
theorem chanBcast_apply (x : Vec Ideal S256 .f32) (d : Fin 256) (h w : Fin 64) :
    (broadcastTo S256x64x64
        (shapeCast S256x1x1
          (shapeCast S256x1x1 (shapeCast S256 x shapeCasts_S256_S256 : FVec Ideal S256 .f32) shapeCasts_S256_S256x1x1 : FVec Ideal S256x1x1 .f32)
          shapeCasts_S256x1x1_S256x1x1 : FVec Ideal S256x1x1 .f32)
        broadcasts_S256x1x1_S256x64x64 : FVec Ideal S256x64x64 .f32) (ix3 d h w)
      = x (ix1 d) := by
  rw [shapeCast_self, shapeCast_self]
  refine (broadcastTo_apply _ broadcasts_S256x1x1_S256x64x64 (ix3 d h w) (ix3 d (0 : Fin 1) (0 : Fin 1)) fun a => ?_).trans ?_
  · match a with
    | ⟨0, _⟩ => rfl
    | ⟨1, _⟩ => rfl
    | ⟨2, _⟩ => rfl
  · exact chanColumn_apply x d

/-! ## The payload at an index -/

/-- The body's arithmetic at channel `d`, row `h`, column `w` of its one batch. -/
theorem pay1_apply (x0 : Vec Ideal S1x256x64x64 .f32) (x1 : Vec Ideal S1x1x64x64 .f32) (x2 x3 : Vec Ideal S256 .f32)
    (d : Fin 256) (h w : Fin 64) :
    (k1_pay1 x0 x1 x2 x3 : FVec Ideal S1x256x64x64 .f32) (ix4 (0 : Fin 1) d h w)
      = x0 (ix4 (0 : Fin 1) d h w) + x1 (ix4 (0 : Fin 1) (0 : Fin 1) h w)
          * (x0 (ix4 (0 : Fin 1) d h w) * (x2 (ix1 d) - Ideal.ofBits .f32 0x3F800000#32) + x3 (ix1 d)) := by
  unfold k1_pay1
  refine (shapeCast_abc_1abc_apply _ shapeCasts_S256x64x64_S1x256x64x64 (0 : Fin 1) d h w).trans ?_
  simp only [addf_apply, mulf_apply, subf_apply, broadcast_apply]
  rw [dropBatch_apply x0 d h w, maskBcast_apply x1 d h w, chanBcast_apply x2 d h w, chanBcast_apply x3 d h w]
  rfl

/-! ## The whole output array as one function of the four input arrays -/

/-- The value at batch `b`, channel `d`, row `h`, column `w`. -/
def applyAt (X : S32x256x64x64.Idx → EReal) (NM : S32x1x64x64.Idx → EReal) (SCL SH : S256.Idx → EReal)
    (b : Fin 32) (d : Fin 256) (h w : Fin 64) : EReal :=
  X (ix4 b d h w) + NM (ix4 b (0 : Fin 1) h w)
    * (X (ix4 b d h w) * (SCL (ix1 d) - Ideal.ofBits .f32 0x3F800000#32) + SH (ix1 d))

/-- The array of those values. -/
def applyArr (X : S32x256x64x64.Idx → EReal) (NM : S32x1x64x64.Idx → EReal) (SCL SH : S256.Idx → EReal) :
    S32x256x64x64.Idx → EReal :=
  fun i => applyAt X NM SCL SH (i 0) (i 1) (i 2) (i 3)

/-- `applyAt` spelt out. -/
theorem applyAt_def (X : S32x256x64x64.Idx → EReal) (NM : S32x1x64x64.Idx → EReal) (SCL SH : S256.Idx → EReal)
    (b : Fin 32) (d : Fin 256) (h w : Fin 64) :
    applyAt X NM SCL SH b d h w
      = X (ix4 b d h w) + NM (ix4 b (0 : Fin 1) h w)
          * (X (ix4 b d h w) * (SCL (ix1 d) - Ideal.ofBits .f32 0x3F800000#32) + SH (ix1 d)) := rfl

/-- Two functions on a one-batch block agree when they agree at every `(0, d, h, w)`. -/
theorem block_ext (P Q : S1x256x64x64.Idx → EReal)
    (hPQ : ∀ (d : Fin 256) (h w : Fin 64), P (ix4 (0 : Fin 1) d h w) = Q (ix4 (0 : Fin 1) d h w)) : P = Q := by
  funext j
  obtain ⟨u, d, h, w, rfl⟩ : ∃ (u : Fin 1) (d : Fin 256) (h w : Fin 64), j = ix4 u d h w := ⟨j 0, j 1, j 2, j 3, eq_ix4 j⟩
  obtain rfl : u = 0 := Subsingleton.elim _ _
  exact hPQ d h w

/-! ## The blocks at a grid point -/

-- the region-entry contents, at the exact extended reals
variable (V : (c : Dev nD) → (b : Ref sig .tc) → Buf (Elt Ideal) ((c : Thread nD τ).loc b))

theorem offs4_zero : (![0, 0, 0, 0] : Fin 4 → Nat) = fun _ => 0 := funext fun a => by fin_cases a <;> rfl
theorem offs1_zero : (![0] : Fin 1 → Nat) = fun _ => 0 := funext fun a => by fin_cases a <;> rfl

/-- The printed index maps over the grid: the activation, mask and output blocks at point `t` are batch `t`; the
    scale and shift blocks are the whole vectors at every point. -/
theorem idx_facts1 : ∀ t : Fin cfg1.N,
    (win1_0.index t (0 : Fin 4) = t.val ∧ win1_0.index t (1 : Fin 4) = 0 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ win1_2.index t (0 : Fin 1) = 0
    ∧ win1_3.index t (0 : Fin 1) = 0
    ∧ (win1_4.index t (0 : Fin 4) = t.val ∧ win1_4.index t (1 : Fin 4) = 0 ∧ win1_4.index t (2 : Fin 4) = 0 ∧ win1_4.index t (3 : Fin 4) = 0) :=
  (by decide +kernel : ∀ t : Fin grid1.N, _)

/-- Where the activation block's element `(0, d, h, w)` sits in the array: batch `t`. -/
theorem emb1_0 (t : Fin cfg1.N) (b : Fin 32) (hb : b.val = t.val) (d : Fin 256) (h w : Fin 64) :
    (((cfg1.win 0).blk t).view.emb (ix4 (0 : Fin 1) d h w) : S32x256x64x64.Idx) = ix4 b d h w := by
  obtain ⟨⟨e0, e1, e2, e3⟩, -⟩ := idx_facts1 t
  funext a; apply Fin.ext
  match a with
  | ⟨0, _⟩ => show win1_0.index t (0 : Fin 4) * 1 + 1 * (0 : Fin 1).val = b.val; rw [e0, hb]; simp
  | ⟨1, _⟩ => show win1_0.index t (1 : Fin 4) * 256 + 1 * d.val = d.val; rw [e1]; omega
  | ⟨2, _⟩ => show win1_0.index t (2 : Fin 4) * 64 + 1 * h.val = h.val; rw [e2]; omega
  | ⟨3, _⟩ => show win1_0.index t (3 : Fin 4) * 64 + 1 * w.val = w.val; rw [e3]; omega

/-- Where the mask block's element `(0, 0, h, w)` sits in the array: batch `t`. -/
theorem emb1_1 (t : Fin cfg1.N) (b : Fin 32) (hb : b.val = t.val) (h w : Fin 64) :
    (((cfg1.win 1).blk t).view.emb (ix4 (0 : Fin 1) (0 : Fin 1) h w) : S32x1x64x64.Idx) = ix4 b (0 : Fin 1) h w := by
  obtain ⟨-, ⟨e0, e1, e2, e3⟩, -⟩ := idx_facts1 t
  funext a; apply Fin.ext
  match a with
  | ⟨0, _⟩ => show win1_1.index t (0 : Fin 4) * 1 + 1 * (0 : Fin 1).val = b.val; rw [e0, hb]; simp
  | ⟨1, _⟩ => show win1_1.index t (1 : Fin 4) * 1 + 1 * (0 : Fin 1).val = (0 : Fin 1).val; rw [e1]; omega
  | ⟨2, _⟩ => show win1_1.index t (2 : Fin 4) * 64 + 1 * h.val = h.val; rw [e2]; omega
  | ⟨3, _⟩ => show win1_1.index t (3 : Fin 4) * 64 + 1 * w.val = w.val; rw [e3]; omega

/-- The scale block's element `d` is the vector's. -/
theorem emb1_2 (t : Fin cfg1.N) (d : Fin 256) :
    (((cfg1.win 2).blk t).view.emb (ix1 d) : S256.Idx) = ix1 d := by
  obtain ⟨-, -, e0, -⟩ := idx_facts1 t
  funext a; apply Fin.ext
  match a with
  | ⟨0, _⟩ => show win1_2.index t (0 : Fin 1) * 256 + 1 * d.val = d.val; rw [e0]; omega

/-- The shift block's element `d` is the vector's. -/
theorem emb1_3 (t : Fin cfg1.N) (d : Fin 256) :
    (((cfg1.win 3).blk t).view.emb (ix1 d) : S256.Idx) = ix1 d := by
  obtain ⟨-, -, -, e0, -⟩ := idx_facts1 t
  funext a; apply Fin.ext
  match a with
  | ⟨0, _⟩ => show win1_3.index t (0 : Fin 1) * 256 + 1 * d.val = d.val; rw [e0]; omega

/-- Where the output block's element `(0, d, h, w)` sits in the array: batch `t`. -/
theorem emb1_4 (t : Fin cfg1.N) (b : Fin 32) (hb : b.val = t.val) (d : Fin 256) (h w : Fin 64) :
    (((cfg1.win 4).blk t).view.emb (ix4 (0 : Fin 1) d h w) : S32x256x64x64.Idx) = ix4 b d h w := by
  obtain ⟨-, -, -, -, e0, e1, e2, e3⟩ := idx_facts1 t
  funext a; apply Fin.ext
  match a with
  | ⟨0, _⟩ => show win1_4.index t (0 : Fin 4) * 1 + 1 * (0 : Fin 1).val = b.val; rw [e0, hb]; simp
  | ⟨1, _⟩ => show win1_4.index t (1 : Fin 4) * 256 + 1 * d.val = d.val; rw [e1]; omega
  | ⟨2, _⟩ => show win1_4.index t (2 : Fin 4) * 64 + 1 * h.val = h.val; rw [e2]; omega
  | ⟨3, _⟩ => show win1_4.index t (3 : Fin 4) * 64 + 1 * w.val = w.val; rw [e3]; omega

/-- The activation block at point `t` is batch `t` of the activations. -/
theorem iblk1_0_apply (c : Dev nD) (t : Fin cfg1.N) (b : Fin 32) (hb : b.val = t.val) (d : Fin 256) (h w : Fin 64) :
    (iblk1 V c 0 t : Vec Ideal S1x256x64x64 .f32) (ix4 (0 : Fin 1) d h w)
      = (V c main_arg0 : S32x256x64x64.Idx → EReal) (ix4 b d h w) := by
  unfold iblk1
  rw [View.read_apply]
  show (V c main_arg0 : S32x256x64x64.Idx → EReal) _ = _
  exact congrArg (V c main_arg0 : S32x256x64x64.Idx → EReal) (emb1_0 t b hb d h w)

/-- The mask block at point `t` is batch `t` of the mask. -/
theorem iblk1_1_apply (c : Dev nD) (t : Fin cfg1.N) (b : Fin 32) (hb : b.val = t.val) (h w : Fin 64) :
    (iblk1 V c 1 t : Vec Ideal S1x1x64x64 .f32) (ix4 (0 : Fin 1) (0 : Fin 1) h w)
      = (V c main_v1 : S32x1x64x64.Idx → EReal) (ix4 b (0 : Fin 1) h w) := by
  unfold iblk1
  rw [View.read_apply]
  show (V c main_v1 : S32x1x64x64.Idx → EReal) _ = _
  exact congrArg (V c main_v1 : S32x1x64x64.Idx → EReal) (emb1_1 t b hb h w)

/-- The scale block at every point is the scale vector. -/
theorem iblk1_2_apply (c : Dev nD) (t : Fin cfg1.N) (d : Fin 256) :
    (iblk1 V c 2 t : Vec Ideal S256 .f32) (ix1 d) = (V c main_v13 : S256.Idx → EReal) (ix1 d) := by
  unfold iblk1
  rw [View.read_apply]
  show (V c main_v13 : S256.Idx → EReal) _ = _
  exact congrArg (V c main_v13 : S256.Idx → EReal) (emb1_2 t d)

/-- The shift block at every point is the shift vector. -/
theorem iblk1_3_apply (c : Dev nD) (t : Fin cfg1.N) (d : Fin 256) :
    (iblk1 V c 3 t : Vec Ideal S256 .f32) (ix1 d) = (V c main_v15 : S256.Idx → EReal) (ix1 d) := by
  unfold iblk1
  rw [View.read_apply]
  show (V c main_v15 : S256.Idx → EReal) _ = _
  exact congrArg (V c main_v15 : S256.Idx → EReal) (emb1_3 t d)

/-! ## What a point writes back, and the array after the last point -/

/-- What point `t` writes back is batch `t` of `applyArr` of the four arrays as the region finds them. -/
theorem flushed1_4_eq (c : Dev nD) (t : Fin cfg1.N) :
    (dat1 V c).flushed 4 t
      = ((cfg1.win 4).blk t).view.read (Elt Ideal)
          (applyArr (V c main_arg0) (V c main_v1) (V c main_v13) (V c main_v15)) := by
  show (cfg1.win 4).cut (grid1.coords t) ((dat1 V c).after 4 t) = _
  rw [after1_4]
  unfold out1_4
  rw [View.canon_unit_zero offs4_zero]
  simp only [View.ld_unit_zero (S := S1x256x64x64) offs4_zero, View.ld_unit_zero (S := S1x1x64x64) offs4_zero,
    View.ld_unit_zero (S := S256) offs1_zero]
  have hb : (⟨t.val, Nat.lt_of_lt_of_eq t.isLt N_1⟩ : Fin 32).val = t.val := rfl
  refine block_ext _ _ fun d h w => ?_
  show (k1_pay1 (iblk1 V c 0 t) (iblk1 V c 1 t) (iblk1 V c 2 t) (iblk1 V c 3 t) : FVec Ideal S1x256x64x64 .f32) (ix4 (0 : Fin 1) d h w)
    = applyArr (V c main_arg0) (V c main_v1) (V c main_v13) (V c main_v15) (((cfg1.win 4).blk t).view.emb (ix4 (0 : Fin 1) d h w))
  refine (pay1_apply (iblk1 V c 0 t) (iblk1 V c 1 t) (iblk1 V c 2 t) (iblk1 V c 3 t) d h w).trans ?_
  rw [iblk1_0_apply V c t _ hb d h w, iblk1_1_apply V c t _ hb h w, iblk1_2_apply V c t d, iblk1_3_apply V c t d,
    emb1_4 t _ hb d h w]
  rfl

/-- An index of the output array is in point `t`'s block iff each coordinate is in the block's range on its axis. -/
theorem mem_blk1_4 (t : Fin cfg1.N) (i : S32x256x64x64.Idx) :
    i ∈ ((cfg1.win 4).blk t).view.set
      ↔ ∀ a : Fin 4, win1_4.index t a * S1x256x64x64.size a ≤ (i a).val
          ∧ (i a).val < win1_4.index t a * S1x256x64x64.size a + S1x256x64x64.size a := by
  show i ∈ ((View.whole main_v16).slice (win1_4.rect t)).set ↔ _
  rw [View.set_slice_whole, Rect.mem_set_unit]
  exact Iff.rfl

/-- Every index of the output array lies in the block of the point that is its batch coordinate. -/
theorem cover1 (i : S32x256x64x64.Idx) :
    ∃ t : Fin cfg1.N, (cfg1.win 4).flush t = true ∧ i ∈ ((cfg1.win 4).blk t).view.set := by
  have h0 : (i 0).val < 32 := (i 0).isLt
  have h1 : (i 1).val < 256 := (i 1).isLt
  have h2 : (i 2).val < 64 := (i 2).isLt
  have h3 : (i 3).val < 64 := (i 3).isLt
  refine ⟨⟨(i 0).val, Nat.lt_of_lt_of_eq h0 N_1.symm⟩, flush1_4 _, ?_⟩
  rw [mem_blk1_4]
  obtain ⟨-, -, -, -, e0, e1, e2, e3⟩ := idx_facts1 ⟨(i 0).val, Nat.lt_of_lt_of_eq h0 N_1.symm⟩
  intro a
  match a with
  | ⟨0, _⟩ =>
    show win1_4.index ⟨(i 0).val, _⟩ (0 : Fin 4) * 1 ≤ (i 0).val ∧ (i 0).val < win1_4.index ⟨(i 0).val, _⟩ (0 : Fin 4) * 1 + 1
    rw [e0]; show (i 0).val * 1 ≤ (i 0).val ∧ (i 0).val < (i 0).val * 1 + 1; omega
  | ⟨1, _⟩ =>
    show win1_4.index ⟨(i 0).val, _⟩ (1 : Fin 4) * 256 ≤ (i 1).val ∧ (i 1).val < win1_4.index ⟨(i 0).val, _⟩ (1 : Fin 4) * 256 + 256
    rw [e1]; omega
  | ⟨2, _⟩ =>
    show win1_4.index ⟨(i 0).val, _⟩ (2 : Fin 4) * 64 ≤ (i 2).val ∧ (i 2).val < win1_4.index ⟨(i 0).val, _⟩ (2 : Fin 4) * 64 + 64
    rw [e2]; omega
  | ⟨3, _⟩ =>
    show win1_4.index ⟨(i 0).val, _⟩ (3 : Fin 4) * 64 ≤ (i 3).val ∧ (i 3).val < win1_4.index ⟨(i 0).val, _⟩ (3 : Fin 4) * 64 + 64
    rw [e3]; omega

/-- The output array after the last point is `applyArr` of the four arrays as the region finds them. -/
theorem final1_arr (c : Dev nD) :
    (dat1 V c).arrAt 4 cfg1.N = applyArr (V c main_arg0) (V c main_v1) (V c main_v13) (V c main_v15) :=
  (dat1 V c).arrAt_eq_of_cover 4 (applyArr (V c main_arg0) (V c main_v1) (V c main_v13) (V c main_v15))
    (fun t _ => flushed1_4_eq V c t) cover1

/-- The output array after the last point, index by index: at batch `b`, channel `d`, row `h`, column `w` it holds
    `x + nm * (x * (scale d - 1) + shift d)` of the four arrays as the region finds them. -/
theorem final1 (c : Dev nD) (b : Fin 32) (d : Fin 256) (h w : Fin 64) :
    ((dat1 (F := Ideal) V c).arrAt 4 cfg1.N : S32x256x64x64.Idx → EReal) (ix4 b d h w)
      = applyAt (V c main_arg0) (V c main_v1) (V c main_v13) (V c main_v15) b d h w := by
  rw [final1_arr V c]
  rfl

/-- The same with the four arrays named: whatever functions `X`, `NM`, `SCL`, `SH` the region-entry contents of the
    activations, the mask, the scale and the shift are. -/
theorem final1_of (c : Dev nD) (X : S32x256x64x64.Idx → EReal) (NM : S32x1x64x64.Idx → EReal) (SCL SH : S256.Idx → EReal)
    (hX : (V c main_arg0 : S32x256x64x64.Idx → EReal) = X) (hNM : (V c main_v1 : S32x1x64x64.Idx → EReal) = NM)
    (hSCL : (V c main_v13 : S256.Idx → EReal) = SCL) (hSH : (V c main_v15 : S256.Idx → EReal) = SH)
    (b : Fin 32) (d : Fin 256) (h w : Fin 64) :
    ((dat1 (F := Ideal) V c).arrAt 4 cfg1.N : S32x256x64x64.Idx → EReal) (ix4 b d h w)
      = X (ix4 b d h w) + NM (ix4 b (0 : Fin 1) h w)
          * (X (ix4 b d h w) * (SCL (ix1 d) - Ideal.ofBits .f32 0x3F800000#32) + SH (ix1 d)) := by
  subst hX hNM hSCL hSH
  exact final1 V c b d h w

end Cert.KernelIdeal.Hand

end
-- ==== Proof.StatsValue.lean ====
/-
  What region 0 (the first pallas_call, `cc0__stats_kernel`) leaves in its two result arrays, index by index, at
  the exact extended reals.

  Grid point `t` handles batch `t`: per channel `d` it adds the block's masked sum `Σ_{h,w} x[t,d,h,w]·nm[t,0,h,w]`
  (and, for the second result, `Σ_{h,w} x·(x·nm)`) to a running vector; the first point starts from zero, and the
  last point's running vectors are what is written back. So each result entry is the sum over all 32 batches:
  * the reductions of the payloads read at an index (two one-axis sums, over columns then rows);
  * each input window's block at point `t` read off its array (batch `t`);
  * a running sum started at `0 + f 0` and continued by `+ f (n + 1)` is the sum of `f` over the points so far;
  * only the last point writes back, its block is the whole 256-vector.
-/
import proofs.«152003_j17076789969318_2_alg».proof.Proof.StatsData
import proofs.«152003_j17076789969318_2_alg».proof.Proof.ApplyValue
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

/-! ## The payloads at an index -/

/-- The vector the first point starts the first running sum from is zero. -/
theorem pay1_zero (d : Fin 256) : (k0_pay1 (F := Ideal) : FVec Ideal S256 .f32) (ix1 d) = 0 := by
  unfold k0_pay1
  rw [shapeCast_self]
  exact Ideal.ofBits_zero_f32

/-- The vector the first point starts the second running sum from is zero. -/
theorem pay2_zero (d : Fin 256) : (k0_pay2 (F := Ideal) : FVec Ideal S256 .f32) (ix1 d) = 0 := by
  unfold k0_pay2
  rw [shapeCast_self]
  exact Ideal.ofBits_zero_f32

/-- Channel `d` with row `h` and then column `w` put back is `(d, h, w)`. -/
theorem lift_rows_cols (d : Fin 256) (h w : Fin 64) :
    reduces_S256x64x64_S256x64.lift (reduces_S256x64_S256.lift (ix1 d) h) w = ix3 d h w := by
  funext a; apply Fin.ext
  match a with
  | ⟨0, _⟩ => rfl
  | ⟨1, _⟩ => rfl
  | ⟨2, _⟩ => rfl

/-- Summing a `[256, 64, 64]` vector over its columns and then its rows: at channel `d` the double sum. -/
theorem sum_rows_cols (v : FVec Ideal S256x64x64 .f32) (d : Fin 256) :
    (multiReduction .add [1] S256
        (multiReduction .add [2] S256x64 v 0x00000000#32 reduces_S256x64x64_S256x64 (.inl rfl) rfl : FVec Ideal S256x64 .f32)
        0x00000000#32 reduces_S256x64_S256 (.inl rfl) rfl : FVec Ideal S256 .f32) (ix1 d)
      = ∑ h : Fin 64, ∑ w : Fin 64, v (ix3 d h w) := by
  refine (Ideal.multiReduction_add_single (φ := .f32) _ 0x00000000#32 reduces_S256x64_S256 (.inl rfl) rfl (ix1 d)).trans ?_
  refine Finset.sum_congr rfl fun h _ => ?_
  refine (Ideal.multiReduction_add_single (φ := .f32) v 0x00000000#32 reduces_S256x64x64_S256x64 (.inl rfl) rfl
    (reduces_S256x64_S256.lift (ix1 d) h)).trans ?_
  refine Finset.sum_congr rfl fun w _ => ?_
  exact congrArg v (lift_rows_cols d h w)

/-- The masked activations at `(d, h, w)`. -/
theorem pay4_apply (x0 : Vec Ideal S1x256x64x64 .f32) (x1 : Vec Ideal S1x1x64x64 .f32) (d : Fin 256) (h w : Fin 64) :
    (k0_pay4 x0 x1 : FVec Ideal S256x64x64 .f32) (ix3 d h w)
      = x0 (ix4 (0 : Fin 1) d h w) * x1 (ix4 (0 : Fin 1) (0 : Fin 1) h w) := by
  unfold k0_pay4 k0_pay3
  simp only [mulf_apply]
  rw [dropBatch_apply x0 d h w, maskBcast_apply x1 d h w]

/-- The first running sum after a point: what it held plus the block's masked sum. -/
theorem pay5_apply (x0 : Vec Ideal S1x256x64x64 .f32) (x1 : Vec Ideal S1x1x64x64 .f32) (s : Vec Ideal S256 .f32) (d : Fin 256) :
    (k0_pay5 x0 x1 s : FVec Ideal S256 .f32) (ix1 d)
      = s (ix1 d) + ∑ h : Fin 64, ∑ w : Fin 64, x0 (ix4 (0 : Fin 1) d h w) * x1 (ix4 (0 : Fin 1) (0 : Fin 1) h w) := by
  unfold k0_pay5
  rw [shapeCast_self]
  simp only [addf_apply]
  refine congrArg (fun z => s (ix1 d) + z) ?_
  refine (sum_rows_cols (k0_pay4 x0 x1) d).trans ?_
  exact Finset.sum_congr rfl fun h _ => Finset.sum_congr rfl fun w _ => pay4_apply x0 x1 d h w

/-- The second running sum after a point: what it held plus the block's masked sum of squares. -/
theorem pay6_apply (x0 : Vec Ideal S1x256x64x64 .f32) (x1 : Vec Ideal S1x1x64x64 .f32) (s : Vec Ideal S256 .f32) (d : Fin 256) :
    (k0_pay6 x0 x1 s : FVec Ideal S256 .f32) (ix1 d)
      = s (ix1 d) + ∑ h : Fin 64, ∑ w : Fin 64,
          x0 (ix4 (0 : Fin 1) d h w) * (x0 (ix4 (0 : Fin 1) d h w) * x1 (ix4 (0 : Fin 1) (0 : Fin 1) h w)) := by
  unfold k0_pay6
  rw [shapeCast_self]
  simp only [addf_apply]
  refine congrArg (fun z => s (ix1 d) + z) ?_
  refine (sum_rows_cols (mulf (k0_pay3 x0) (k0_pay4 x0 x1)) d).trans ?_
  refine Finset.sum_congr rfl fun h _ => Finset.sum_congr rfl fun w _ => ?_
  show (k0_pay3 x0 : FVec Ideal S256x64x64 .f32) (ix3 d h w) * (k0_pay4 x0 x1 : FVec Ideal S256x64x64 .f32) (ix3 d h w) = _
  rw [pay4_apply x0 x1 d h w]
  unfold k0_pay3
  rw [dropBatch_apply x0 d h w]

/-! ## A running sum is a sum -/

/-- A quantity started at `0 + f 0` and continued by `+ f (n + 1)` is the sum of `f` over the points so far. -/
theorem runningSum_eq {N : ℕ} (a : (n : ℕ) → n < N → EReal) (f : ℕ → EReal)
    (h0 : ∀ h, a 0 h = 0 + f 0) (hs : ∀ n (h : n + 1 < N), a (n + 1) h = a n (Nat.lt_of_succ_lt h) + f (n + 1)) :
    ∀ n (h : n < N), a n h = ∑ b ∈ Finset.range (n + 1), f b := by
  intro n
  induction n with
  | zero => intro h; rw [h0 h, Finset.sum_range_one, zero_add]
  | succ n ih => intro h; rw [hs n h, ih]; exact (Finset.sum_range_succ f (n + 1)).symm

/-- A 256-vector is determined by its entries. -/
theorem vec_ext (P Q : S256.Idx → EReal) (hPQ : ∀ d : Fin 256, P (ix1 d) = Q (ix1 d)) : P = Q := by
  funext j
  rw [eq_ix1 j]
  exact hPQ (j 0)

/-! ## The two results as functions of the activations and the mask -/

/-- Batch `b`'s masked sum at channel `d` (zero past the last batch). -/
def blockSum0 (X : S32x256x64x64.Idx → EReal) (NM : S32x1x64x64.Idx → EReal) (d : Fin 256) (b : ℕ) : EReal :=
  if hb : b < 32 then ∑ h : Fin 64, ∑ w : Fin 64, X (ix4 (⟨b, hb⟩ : Fin 32) d h w) * NM (ix4 (⟨b, hb⟩ : Fin 32) (0 : Fin 1) h w) else 0

/-- Batch `b`'s masked sum of squares at channel `d` (zero past the last batch). -/
def blockSum1 (X : S32x256x64x64.Idx → EReal) (NM : S32x1x64x64.Idx → EReal) (d : Fin 256) (b : ℕ) : EReal :=
  if hb : b < 32 then ∑ h : Fin 64, ∑ w : Fin 64,
    X (ix4 (⟨b, hb⟩ : Fin 32) d h w) * (X (ix4 (⟨b, hb⟩ : Fin 32) d h w) * NM (ix4 (⟨b, hb⟩ : Fin 32) (0 : Fin 1) h w)) else 0

/-- The masked sum at channel `d` over every batch, row and column. -/
def sum0 (X : S32x256x64x64.Idx → EReal) (NM : S32x1x64x64.Idx → EReal) (d : Fin 256) : EReal :=
  ∑ b : Fin 32, ∑ h : Fin 64, ∑ w : Fin 64, X (ix4 b d h w) * NM (ix4 b (0 : Fin 1) h w)

/-- The masked sum of squares at channel `d` over every batch, row and column. -/
def sumsq0 (X : S32x256x64x64.Idx → EReal) (NM : S32x1x64x64.Idx → EReal) (d : Fin 256) : EReal :=
  ∑ b : Fin 32, ∑ h : Fin 64, ∑ w : Fin 64, X (ix4 b d h w) * (X (ix4 b d h w) * NM (ix4 b (0 : Fin 1) h w))

theorem sum0_def (X : S32x256x64x64.Idx → EReal) (NM : S32x1x64x64.Idx → EReal) (d : Fin 256) :
    sum0 X NM d = ∑ b : Fin 32, ∑ h : Fin 64, ∑ w : Fin 64, X (ix4 b d h w) * NM (ix4 b (0 : Fin 1) h w) := rfl
theorem sumsq0_def (X : S32x256x64x64.Idx → EReal) (NM : S32x1x64x64.Idx → EReal) (d : Fin 256) :
    sumsq0 X NM d = ∑ b : Fin 32, ∑ h : Fin 64, ∑ w : Fin 64, X (ix4 b d h w) * (X (ix4 b d h w) * NM (ix4 b (0 : Fin 1) h w)) := rfl

/-- The two result vectors. -/
def sumArr0 (X : S32x256x64x64.Idx → EReal) (NM : S32x1x64x64.Idx → EReal) : S256.Idx → EReal := fun i => sum0 X NM (i 0)
def sumsqArr0 (X : S32x256x64x64.Idx → EReal) (NM : S32x1x64x64.Idx → EReal) : S256.Idx → EReal := fun i => sumsq0 X NM (i 0)

/-- The sum of the batches' masked sums over the 32 points is the sum over every batch. -/
theorem range_blockSum0 (X : S32x256x64x64.Idx → EReal) (NM : S32x1x64x64.Idx → EReal) (d : Fin 256) :
    ∑ b ∈ Finset.range 32, blockSum0 X NM d b = sum0 X NM d := by
  rw [← Fin.sum_univ_eq_sum_range]
  unfold sum0
  refine Finset.sum_congr rfl fun b _ => ?_
  unfold blockSum0
  rw [dif_pos b.isLt]
theorem range_blockSum1 (X : S32x256x64x64.Idx → EReal) (NM : S32x1x64x64.Idx → EReal) (d : Fin 256) :
    ∑ b ∈ Finset.range 32, blockSum1 X NM d b = sumsq0 X NM d := by
  rw [← Fin.sum_univ_eq_sum_range]
  unfold sumsq0
  refine Finset.sum_congr rfl fun b _ => ?_
  unfold blockSum1
  rw [dif_pos b.isLt]

/-! ## The blocks at a grid point -/

-- the region-entry contents, at the exact extended reals
variable (V : (c : Dev nD) → (b : Ref sig .tc) → Buf (Elt Ideal) ((c : Thread nD τ).loc b))

/-- The printed index maps over the grid: the activation and mask blocks at point `t` are batch `t`; the two result
    blocks are the whole vectors at every point. -/
theorem idx_facts0 : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ win0_2.index t (0 : Fin 1) = 0
    ∧ win0_3.index t (0 : Fin 1) = 0 :=
  (by decide +kernel : ∀ t : Fin grid0.N, _)

/-- Where the activation block's element `(0, d, h, w)` sits in the array: batch `t`. -/
theorem emb0_0 (t : Fin cfg0.N) (b : Fin 32) (hb : b.val = t.val) (d : Fin 256) (h w : Fin 64) :
    (((cfg0.win 0).blk t).view.emb (ix4 (0 : Fin 1) d h w) : S32x256x64x64.Idx) = ix4 b d h w := by
  obtain ⟨⟨e0, e1, e2, e3⟩, -⟩ := idx_facts0 t
  funext a; apply Fin.ext
  match a with
  | ⟨0, _⟩ => show win0_0.index t (0 : Fin 4) * 1 + 1 * (0 : Fin 1).val = b.val; rw [e0, hb]; simp
  | ⟨1, _⟩ => show win0_0.index t (1 : Fin 4) * 256 + 1 * d.val = d.val; rw [e1]; omega
  | ⟨2, _⟩ => show win0_0.index t (2 : Fin 4) * 64 + 1 * h.val = h.val; rw [e2]; omega
  | ⟨3, _⟩ => show win0_0.index t (3 : Fin 4) * 64 + 1 * w.val = w.val; rw [e3]; omega

/-- Where the mask block's element `(0, 0, h, w)` sits in the array: batch `t`. -/
theorem emb0_1 (t : Fin cfg0.N) (b : Fin 32) (hb : b.val = t.val) (h w : Fin 64) :
    (((cfg0.win 1).blk t).view.emb (ix4 (0 : Fin 1) (0 : Fin 1) h w) : S32x1x64x64.Idx) = ix4 b (0 : Fin 1) h w := by
  obtain ⟨-, ⟨e0, e1, e2, e3⟩, -⟩ := idx_facts0 t
  funext a; apply Fin.ext
  match a with
  | ⟨0, _⟩ => show win0_1.index t (0 : Fin 4) * 1 + 1 * (0 : Fin 1).val = b.val; rw [e0, hb]; simp
  | ⟨1, _⟩ => show win0_1.index t (1 : Fin 4) * 1 + 1 * (0 : Fin 1).val = (0 : Fin 1).val; rw [e1]; omega
  | ⟨2, _⟩ => show win0_1.index t (2 : Fin 4) * 64 + 1 * h.val = h.val; rw [e2]; omega
  | ⟨3, _⟩ => show win0_1.index t (3 : Fin 4) * 64 + 1 * w.val = w.val; rw [e3]; omega

/-- The first result block's element `d` is the vector's. -/
theorem emb0_2 (t : Fin cfg0.N) (d : Fin 256) :
    (((cfg0.win 2).blk t).view.emb (ix1 d) : S256.Idx) = ix1 d := by
  obtain ⟨-, -, e0, -⟩ := idx_facts0 t
  funext a; apply Fin.ext
  match a with
  | ⟨0, _⟩ => show win0_2.index t (0 : Fin 1) * 256 + 1 * d.val = d.val; rw [e0]; omega

/-- The second result block's element `d` is the vector's. -/
theorem emb0_3 (t : Fin cfg0.N) (d : Fin 256) :
    (((cfg0.win 3).blk t).view.emb (ix1 d) : S256.Idx) = ix1 d := by
  obtain ⟨-, -, -, e0⟩ := idx_facts0 t
  funext a; apply Fin.ext
  match a with
  | ⟨0, _⟩ => show win0_3.index t (0 : Fin 1) * 256 + 1 * d.val = d.val; rw [e0]; omega

/-- The activation block at point `t` is batch `t` of the activations. -/
theorem iblk0_0_apply (c : Dev nD) (t : Fin cfg0.N) (b : Fin 32) (hb : b.val = t.val) (d : Fin 256) (h w : Fin 64) :
    (iblk0 V c 0 t : Vec Ideal S1x256x64x64 .f32) (ix4 (0 : Fin 1) d h w)
      = (V c main_arg0 : S32x256x64x64.Idx → EReal) (ix4 b d h w) := by
  unfold iblk0
  rw [View.read_apply]
  show (V c main_arg0 : S32x256x64x64.Idx → EReal) _ = _
  exact congrArg (V c main_arg0 : S32x256x64x64.Idx → EReal) (emb0_0 t b hb d h w)

/-- The mask block at point `t` is batch `t` of the mask. -/
theorem iblk0_1_apply (c : Dev nD) (t : Fin cfg0.N) (b : Fin 32) (hb : b.val = t.val) (h w : Fin 64) :
    (iblk0 V c 1 t : Vec Ideal S1x1x64x64 .f32) (ix4 (0 : Fin 1) (0 : Fin 1) h w)
      = (V c main_v1 : S32x1x64x64.Idx → EReal) (ix4 b (0 : Fin 1) h w) := by
  unfold iblk0
  rw [View.read_apply]
  show (V c main_v1 : S32x1x64x64.Idx → EReal) _ = _
  exact congrArg (V c main_v1 : S32x1x64x64.Idx → EReal) (emb0_1 t b hb h w)

/-- The block's masked sum at point `t` is batch `t`'s. -/
theorem blockSum0_eq (c : Dev nD) (t : Fin cfg0.N) (d : Fin 256)
    (x0 : Vec Ideal S1x256x64x64 .f32) (x1 : Vec Ideal S1x1x64x64 .f32) (hx0 : x0 = iblk0 V c 0 t) (hx1 : x1 = iblk0 V c 1 t) :
    (∑ h : Fin 64, ∑ w : Fin 64, x0 (ix4 (0 : Fin 1) d h w) * x1 (ix4 (0 : Fin 1) (0 : Fin 1) h w))
      = blockSum0 (V c main_arg0) (V c main_v1) d t.val := by
  have hb : t.val < 32 := Nat.lt_of_lt_of_eq t.isLt N_0
  subst hx0 hx1
  unfold blockSum0
  rw [dif_pos hb]
  refine Finset.sum_congr rfl fun h _ => Finset.sum_congr rfl fun w _ => ?_
  rw [iblk0_0_apply V c t ⟨t.val, hb⟩ rfl d h w, iblk0_1_apply V c t ⟨t.val, hb⟩ rfl h w]

/-- The block's masked sum of squares at point `t` is batch `t`'s. -/
theorem blockSum1_eq (c : Dev nD) (t : Fin cfg0.N) (d : Fin 256)
    (x0 : Vec Ideal S1x256x64x64 .f32) (x1 : Vec Ideal S1x1x64x64 .f32) (hx0 : x0 = iblk0 V c 0 t) (hx1 : x1 = iblk0 V c 1 t) :
    (∑ h : Fin 64, ∑ w : Fin 64, x0 (ix4 (0 : Fin 1) d h w)
        * (x0 (ix4 (0 : Fin 1) d h w) * x1 (ix4 (0 : Fin 1) (0 : Fin 1) h w)))
      = blockSum1 (V c main_arg0) (V c main_v1) d t.val := by
  have hb : t.val < 32 := Nat.lt_of_lt_of_eq t.isLt N_0
  subst hx0 hx1
  unfold blockSum1
  rw [dif_pos hb]
  refine Finset.sum_congr rfl fun h _ => Finset.sum_congr rfl fun w _ => ?_
  rw [iblk0_0_apply V c t ⟨t.val, hb⟩ rfl d h w, iblk0_1_apply V c t ⟨t.val, hb⟩ rfl h w]

/-! ## The running vectors, point by point -/

/-- The first running vector after point `n`, at channel `d`: the masked sums of batches `0 … n`. -/
theorem acc0_apply (c : Dev nD) (d : Fin 256) : ∀ (n : ℕ) (hn : n < cfg0.N),
    (acc0 (F := Ideal) V c n hn : S256.Idx → EReal) (ix1 d)
      = ∑ b ∈ Finset.range (n + 1), blockSum0 (V c main_arg0) (V c main_v1) d b := by
  refine runningSum_eq (fun n hn => (acc0 (F := Ideal) V c n hn : S256.Idx → EReal) (ix1 d))
    (blockSum0 (V c main_arg0) (V c main_v1) d) (fun h => ?_) (fun n h => ?_)
  · show (k0_pay5 (iblk0 V c 0 ⟨0, h⟩) (iblk0 V c 1 ⟨0, h⟩) (k0_pay1 (F := Ideal)) : FVec Ideal S256 .f32) (ix1 d) = _
    refine (pay5_apply (iblk0 V c 0 ⟨0, h⟩) (iblk0 V c 1 ⟨0, h⟩) (k0_pay1 (F := Ideal)) d).trans ?_
    rw [pay1_zero d, blockSum0_eq V c ⟨0, h⟩ d (iblk0 V c 0 ⟨0, h⟩) (iblk0 V c 1 ⟨0, h⟩) rfl rfl]
  · show (k0_pay5 (iblk0 V c 0 ⟨n + 1, h⟩) (iblk0 V c 1 ⟨n + 1, h⟩) (acc0 (F := Ideal) V c n (Nat.lt_of_succ_lt h)) : FVec Ideal S256 .f32) (ix1 d) = _
    refine (pay5_apply (iblk0 V c 0 ⟨n + 1, h⟩) (iblk0 V c 1 ⟨n + 1, h⟩) (acc0 (F := Ideal) V c n (Nat.lt_of_succ_lt h)) d).trans ?_
    rw [blockSum0_eq V c ⟨n + 1, h⟩ d (iblk0 V c 0 ⟨n + 1, h⟩) (iblk0 V c 1 ⟨n + 1, h⟩) rfl rfl]

/-- The second running vector after point `n`, at channel `d`: the masked sums of squares of batches `0 … n`. -/
theorem acc1_apply (c : Dev nD) (d : Fin 256) : ∀ (n : ℕ) (hn : n < cfg0.N),
    (acc1 (F := Ideal) V c n hn : S256.Idx → EReal) (ix1 d)
      = ∑ b ∈ Finset.range (n + 1), blockSum1 (V c main_arg0) (V c main_v1) d b := by
  refine runningSum_eq (fun n hn => (acc1 (F := Ideal) V c n hn : S256.Idx → EReal) (ix1 d))
    (blockSum1 (V c main_arg0) (V c main_v1) d) (fun h => ?_) (fun n h => ?_)
  · show (k0_pay6 (iblk0 V c 0 ⟨0, h⟩) (iblk0 V c 1 ⟨0, h⟩) (k0_pay2 (F := Ideal)) : FVec Ideal S256 .f32) (ix1 d) = _
    refine (pay6_apply (iblk0 V c 0 ⟨0, h⟩) (iblk0 V c 1 ⟨0, h⟩) (k0_pay2 (F := Ideal)) d).trans ?_
    rw [pay2_zero d, blockSum1_eq V c ⟨0, h⟩ d (iblk0 V c 0 ⟨0, h⟩) (iblk0 V c 1 ⟨0, h⟩) rfl rfl]
  · show (k0_pay6 (iblk0 V c 0 ⟨n + 1, h⟩) (iblk0 V c 1 ⟨n + 1, h⟩) (acc1 (F := Ideal) V c n (Nat.lt_of_succ_lt h)) : FVec Ideal S256 .f32) (ix1 d) = _
    refine (pay6_apply (iblk0 V c 0 ⟨n + 1, h⟩) (iblk0 V c 1 ⟨n + 1, h⟩) (acc1 (F := Ideal) V c n (Nat.lt_of_succ_lt h)) d).trans ?_
    rw [blockSum1_eq V c ⟨n + 1, h⟩ d (iblk0 V c 0 ⟨n + 1, h⟩) (iblk0 V c 1 ⟨n + 1, h⟩) rfl rfl]

/-! ## What the last point writes back, and the two arrays after it -/

/-- The one write-back of the first result, at the last point, writes the sums over every batch. -/
theorem flushed0_2_eq (c : Dev nD) (t : Fin cfg0.N) (hf : (cfg0.win 2).flush t = true) :
    (dat0 V c).flushed 2 t
      = ((cfg0.win 2).blk t).view.read (Elt Ideal) (sumArr0 (V c main_arg0) (V c main_v1)) := by
  have hN : t.val < 32 := Nat.lt_of_lt_of_eq t.isLt N_0
  have h31 : t.val + 1 = 32 := by have := (flush0_2 t).mp hf; omega
  show (cfg0.win 2).cut (grid0.coords t) ((dat0 V c).after 2 t) = _
  rw [after0_2]
  refine vec_ext _ _ fun d => ?_
  show (acc0 (F := Ideal) V c t.val t.isLt : S256.Idx → EReal) (ix1 d)
    = sumArr0 (V c main_arg0) (V c main_v1) (((cfg0.win 2).blk t).view.emb (ix1 d))
  rw [emb0_2 t d, acc0_apply V c d t.val t.isLt, h31, range_blockSum0]
  rfl

/-- The one write-back of the second result, at the last point, writes the sums of squares over every batch. -/
theorem flushed0_3_eq (c : Dev nD) (t : Fin cfg0.N) (hf : (cfg0.win 3).flush t = true) :
    (dat0 V c).flushed 3 t
      = ((cfg0.win 3).blk t).view.read (Elt Ideal) (sumsqArr0 (V c main_arg0) (V c main_v1)) := by
  have hN : t.val < 32 := Nat.lt_of_lt_of_eq t.isLt N_0
  have h31 : t.val + 1 = 32 := by have := (flush0_3 t).mp hf; omega
  show (cfg0.win 3).cut (grid0.coords t) ((dat0 V c).after 3 t) = _
  rw [after0_3]
  refine vec_ext _ _ fun d => ?_
  show (acc1 (F := Ideal) V c t.val t.isLt : S256.Idx → EReal) (ix1 d)
    = sumsqArr0 (V c main_arg0) (V c main_v1) (((cfg0.win 3).blk t).view.emb (ix1 d))
  rw [emb0_3 t d, acc1_apply V c d t.val t.isLt, h31, range_blockSum1]
  rfl

/-- The last point. -/
abbrev tLast0 : Fin cfg0.N := ⟨31, Nat.lt_of_lt_of_eq (by decide : 31 < 32) N_0.symm⟩

/-- Every index of the first result array lies in the last point's block, which is written back. -/
theorem cover0_2 (i : S256.Idx) :
    ∃ t : Fin cfg0.N, (cfg0.win 2).flush t = true ∧ i ∈ ((cfg0.win 2).blk t).view.set := by
  have h0 : (i 0).val < 256 := (i 0).isLt
  refine ⟨tLast0, (flush0_2 tLast0).mpr rfl, ?_⟩
  show i ∈ ((View.whole main_v2_0).slice (win0_2.rect tLast0)).set
  rw [View.set_slice_whole, Rect.mem_set_unit]
  obtain ⟨-, -, e0, -⟩ := idx_facts0 tLast0
  intro a
  match a with
  | ⟨0, _⟩ =>
    show win0_2.index tLast0 (0 : Fin 1) * 256 ≤ (i 0).val ∧ (i 0).val < win0_2.index tLast0 (0 : Fin 1) * 256 + 256
    rw [e0]; omega

/-- Every index of the second result array lies in the last point's block, which is written back. -/
theorem cover0_3 (i : S256.Idx) :
    ∃ t : Fin cfg0.N, (cfg0.win 3).flush t = true ∧ i ∈ ((cfg0.win 3).blk t).view.set := by
  have h0 : (i 0).val < 256 := (i 0).isLt
  refine ⟨tLast0, (flush0_3 tLast0).mpr rfl, ?_⟩
  show i ∈ ((View.whole main_v2_1).slice (win0_3.rect tLast0)).set
  rw [View.set_slice_whole, Rect.mem_set_unit]
  obtain ⟨-, -, -, e0⟩ := idx_facts0 tLast0
  intro a
  match a with
  | ⟨0, _⟩ =>
    show win0_3.index tLast0 (0 : Fin 1) * 256 ≤ (i 0).val ∧ (i 0).val < win0_3.index tLast0 (0 : Fin 1) * 256 + 256
    rw [e0]; omega

/-- The first result array after the last point. -/
theorem final0_2_arr (c : Dev nD) : (dat0 V c).arrAt 2 cfg0.N = sumArr0 (V c main_arg0) (V c main_v1) :=
  (dat0 V c).arrAt_eq_of_cover 2 (sumArr0 (V c main_arg0) (V c main_v1)) (fun t hf => flushed0_2_eq V c t hf) cover0_2

/-- The second result array after the last point. -/
theorem final0_3_arr (c : Dev nD) : (dat0 V c).arrAt 3 cfg0.N = sumsqArr0 (V c main_arg0) (V c main_v1) :=
  (dat0 V c).arrAt_eq_of_cover 3 (sumsqArr0 (V c main_arg0) (V c main_v1)) (fun t hf => flushed0_3_eq V c t hf) cover0_3

/-- The first result at channel `d`: the masked sum over every batch, row and column. -/
theorem final0_2 (c : Dev nD) (d : Fin 256) :
    ((dat0 (F := Ideal) V c).arrAt 2 cfg0.N : S256.Idx → EReal) (ix1 d) = sum0 (V c main_arg0) (V c main_v1) d := by
  rw [final0_2_arr V c]
  rfl

/-- The second result at channel `d`: the masked sum of squares over every batch, row and column. -/
theorem final0_3 (c : Dev nD) (d : Fin 256) :
    ((dat0 (F := Ideal) V c).arrAt 3 cfg0.N : S256.Idx → EReal) (ix1 d) = sumsq0 (V c main_arg0) (V c main_v1) d := by
  rw [final0_3_arr V c]
  rfl

/-- The same with the two arrays named. -/
theorem final0_2_of (c : Dev nD) (X : S32x256x64x64.Idx → EReal) (NM : S32x1x64x64.Idx → EReal)
    (hX : (V c main_arg0 : S32x256x64x64.Idx → EReal) = X) (hNM : (V c main_v1 : S32x1x64x64.Idx → EReal) = NM) (d : Fin 256) :
    ((dat0 (F := Ideal) V c).arrAt 2 cfg0.N : S256.Idx → EReal) (ix1 d)
      = ∑ b : Fin 32, ∑ h : Fin 64, ∑ w : Fin 64, X (ix4 b d h w) * NM (ix4 b (0 : Fin 1) h w) := by
  subst hX hNM
  exact final0_2 V c d

theorem final0_3_of (c : Dev nD) (X : S32x256x64x64.Idx → EReal) (NM : S32x1x64x64.Idx → EReal)
    (hX : (V c main_arg0 : S32x256x64x64.Idx → EReal) = X) (hNM : (V c main_v1 : S32x1x64x64.Idx → EReal) = NM) (d : Fin 256) :
    ((dat0 (F := Ideal) V c).arrAt 3 cfg0.N : S256.Idx → EReal) (ix1 d)
      = ∑ b : Fin 32, ∑ h : Fin 64, ∑ w : Fin 64, X (ix4 b d h w) * (X (ix4 b d h w) * NM (ix4 b (0 : Fin 1) h w)) := by
  subst hX hNM
  exact final0_3 V c d

end Cert.KernelIdeal.Hand

end
-- ==== Proof.KValue.lean ====
import proofs.«152003_j17076789969318_2_alg».proof.Proof.KHost
import proofs.«152003_j17076789969318_2_alg».proof.Proof.StatsValue
import proofs.«152003_j17076789969318_2_alg».proof.Proof.ApplyValue
import proofs.«152003_j17076789969318_2_alg».proof.Proof.Spec
import proofs.«152003_j17076789969318_2_alg».proof.Proof.Gen.KernelIdeal.Launch
import proofs.«152003_j17076789969318_2_alg».proof.Proof.Gen.KernelIdeal.Skeleton
import proofs.«152003_j17076789969318_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-! # The result array of the whole program, on the extended reals

The second call's output array, entry by entry, is x + nm·(x·(scale − 1) + shift) of what the host stretch left,
the host stretch's scale and shift are those of the two sums the first call accumulated: together the
specification's function of the four arguments. -/

open Idealize.ShloMosaic.ValueIdx

variable (m : (ℓ : Loc nD τ sig) → Buf (Elt Ideal) ℓ) (ρ : Dev nD → PrngReg)

theorem V1_main_arg0 (c : Dev nD) : (V1 m ρ c main_arg0 : S32x256x64x64.Idx → EReal) = m ((c : Thread nD τ).loc main_arg0) :=
  (W1_of m ρ c main_arg0 (by decide)).trans rfl

/-- The first call's two result arrays hold the specification's two sums. -/
theorem W2_sum (c : Dev nD) (d : Fin 256) :
    (W2 m ρ c (Proc.devRef .tc main_v2_0) : S256.Idx → EReal) (ix1 d)
      = Cert.Spec.s1 (m ((c : Thread nD τ).loc main_arg0)) (m ((c : Thread nD τ).loc main_arg1)) d :=
  (congrFun (W2_arr m ρ c 2) (ix1 d)).trans
    (final0_2_of (V1 m ρ) c _ _ (V1_main_arg0 m ρ c) (W1_main_v1 m ρ c) d)
theorem W2_sumsq (c : Dev nD) (d : Fin 256) :
    (W2 m ρ c (Proc.devRef .tc main_v2_1) : S256.Idx → EReal) (ix1 d)
      = Cert.Spec.s2 (m ((c : Thread nD τ).loc main_arg0)) (m ((c : Thread nD τ).loc main_arg1)) d :=
  (congrFun (W2_arr m ρ c 3) (ix1 d)).trans
    (final0_3_of (V1 m ρ) c _ _ (V1_main_arg0 m ρ c) (W1_main_v1 m ρ c) d)

/-- The result array is the specification's function of the arguments. -/
theorem kernel_value (c : Dev nD) :
    ((dat1 (F := Ideal) (V3 m ρ) c).arrAt 4 cfg1.N : S32x256x64x64.Idx → EReal)
      = Cert.Spec.kout (m ((c : Thread nD τ).loc main_arg0)) (m ((c : Thread nD τ).loc main_arg1))
          (m ((c : Thread nD τ).loc main_arg2)) (m ((c : Thread nD τ).loc main_arg3)) := by
  funext i
  obtain ⟨b, d, h, w, rfl⟩ : ∃ (b : Fin 32) (d : Fin 256) (h w : Fin 64), i = ix4 b d h w :=
    ⟨i 0, i 1, i 2, i 3, eq_ix4 i⟩
  have hSCL := W3_main_v13 m ρ c
  have hSH := W3_main_v15 m ρ c
  rw [W2_main_arg2, W2_main_v1] at hSCL
  rw [W2_main_arg2, W2_main_arg3, W2_main_v1] at hSH
  rw [final1_of (V3 m ρ) c _ _ _ _ (W3_main_arg0 m ρ c) (W3_main_v1 m ρ c) hSCL hSH b d h w, Cert.Spec.kout_ix4]
  rw [hostScale_apply, hostShift_apply, hostMean_apply, hostScale_apply, hostVarEps_apply, W2_sum, W2_sumsq]
  rfl

end Cert.KernelIdeal.Hand
end
-- ==== Proof.BridgeAlgebra.lean ====
/-
  Real-number facts behind the masked batch normalisation: the two literal words, quotients and finite sums of reals
  on the extended reals, a rank-4 index set as the product of its coordinate ranges, and the variance identity
      Σ (a − m)²·n / N = Σ a·(a·n) / N − m·m      for N = Σ n ≠ 0 and m = Σ a·n / N.
-/
import Idealize.ShloMosaic.PureOps.Ideal.Laws
import Idealize.ShloMosaic.Lib.ValueIdx

noncomputable section

open scoped BigOperators

namespace Cert.RefBridge

open Idealize.ShloMosaic Idealize.ShloMosaic.ValueIdx

/-! ## The two literal words -/

/-- The word 0x3F800000 is the number one. -/
theorem ofBits_one : Ideal.ofBits .f32 0x3F800000#32 = ((1 : ℝ) : EReal) := by
  simp [Ideal.ofBits, Ideal.ieee]
  norm_cast
  norm_num

/-- The stabiliser's word is a positive real. -/
theorem ofBits_eps : ∃ e : ℝ, 0 < e ∧ Ideal.ofBits .f32 0x3727C5AC#32 = (e : EReal) := by
  refine ⟨10995116 * (2 ^ 40)⁻¹, by positivity, ?_⟩
  simp [Ideal.ofBits, Ideal.ieee]

/-! ## Reals inside the extended reals -/

/-- The quotient of two reals by a nonzero divisor is the real quotient. -/
theorem div_coe_coe (a : ℝ) {n : ℝ} (hn : n ≠ 0) : Ideal.div (a : EReal) (n : EReal) = ((a / n : ℝ) : EReal) := by
  rw [Ideal.div_coe hn, ← EReal.coe_mul, mul_one_div]

/-- The square root of a nonnegative real is the real square root. -/
theorem sqrt_coe_nonneg {r : ℝ} (hr : 0 ≤ r) : Ideal.sqrt (r : EReal) = ((Real.sqrt r : ℝ) : EReal) := by
  rw [Ideal.sqrt_coe, if_neg (not_lt.mpr hr)]

/-- A finite sum of reals, cast. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- x + 1·(x·(v − 1) + (b − m·v)) = (x − m)·v + b on reals inside the extended reals. -/
theorem affine_eq (x m v b : ℝ) :
    (x : EReal) + ((1 : ℝ) : EReal) * ((x : EReal) * ((v : EReal) - ((1 : ℝ) : EReal)) + ((b : EReal) - (m : EReal) * (v : EReal)))
      = ((x : EReal) - (m : EReal)) * (v : EReal) + (b : EReal) := by
  have h : ((x + 1 * (x * (v - 1) + (b - m * v)) : ℝ) : EReal) = (((x - m) * v + b : ℝ) : EReal) := by
    congr 1; ring
  simpa only [EReal.coe_add, EReal.coe_mul, EReal.coe_sub] using h

/-! ## Sums over index sets -/

/-- A triple sum is the sum over the triple product. -/
theorem sum3 {M : Type*} [AddCommMonoid M] {A B C : Type*} [Fintype A] [Fintype B] [Fintype C] (F : A → B → C → M) :
    ∑ a, ∑ b, ∑ c, F a b c = ∑ p : A × B × C, F p.1 p.2.1 p.2.2 := by
  rw [Fintype.sum_prod_type]
  refine Finset.sum_congr rfl fun a _ => ?_
  rw [Fintype.sum_prod_type]

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## The variance identity -/

/-- With N = Σ n ≠ 0 and m = Σ a·n / N, the weighted mean of the squared deviations is the weighted mean of the squares
    less the squared mean. -/
theorem var_identity {ι : Type*} [Fintype ι] (a n : ι → ℝ) (hN : (∑ i, n i) ≠ 0) :
    (∑ i, ((a i - (∑ i, a i * n i) / (∑ i, n i)) * (a i - (∑ i, a i * n i) / (∑ i, n i))) * n i) / (∑ i, n i)
      = (∑ i, a i * (a i * n i)) / (∑ i, n i)
        - ((∑ i, a i * n i) / (∑ i, n i)) * ((∑ i, a i * n i) / (∑ i, n i)) := by
  generalize hNd : (∑ i, n i) = N at hN ⊢
  generalize hS1 : (∑ i, a i * n i) = S1
  generalize hm : S1 / N = m
  have h1 : ∑ i, ((a i - m) * (a i - m)) * n i = (∑ i, a i * (a i * n i)) - 2 * m * S1 + m * m * N := by
    rw [← hS1, ← hNd, Finset.mul_sum, Finset.mul_sum, ← Finset.sum_sub_distrib, ← Finset.sum_add_distrib]
    exact Finset.sum_congr rfl fun i _ => by ring
  have h2 : S1 = m * N := by rw [← hm]; field_simp
  rw [h1, h2]
  field_simp
  ring

/-- That weighted mean of squared deviations is nonnegative for nonnegative weights of positive total. -/
theorem var_nonneg {ι : Type*} [Fintype ι] (a n : ι → ℝ) (m : ℝ) (hn : ∀ i, 0 ≤ n i) (hN : 0 < ∑ i, n i) :
    0 ≤ (∑ i, ((a i - m) * (a i - m)) * n i) / (∑ i, n i) :=
  div_nonneg (Finset.sum_nonneg fun i _ => mul_nonneg (mul_self_nonneg _) (hn i)) hN.le

end Cert.RefBridge

end
-- ==== Proof.RefSums.lean ====
/-
  The reference's stages read at an index (b, d, h, w): its two sums over batch, rows and columns are the triple sums
  over those coordinates, its mean is the specification's, and its last stage before the select is
  (x − mean d)·(γ d / √(v d + ε)) + β d, with v d the mean of the masked squared deviations.
-/
import proofs.«152003_j17076789969318_2_alg».proof.Proof.Gen.ReferenceIdeal.Read
import proofs.«152003_j17076789969318_2_alg».proof.Proof.Spec
import proofs.«152003_j17076789969318_2_alg».proof.Proof.BridgeAlgebra

noncomputable section

open scoped BigOperators

namespace Cert.RefBridge

open Cert.ReferenceIdeal Cert.ReferenceIdeal.Gen Cert.ReferenceIdeal.Read Idealize.ShloMosaic Idealize.ShloMosaic.ValueIdx
open Cert.Spec (SX SM SC)

/-! ## A sum over batch, rows and columns into the channels -/

/-- Dropping the batch, row and column coordinates of (b, d, h, w) leaves d. -/
theorem drop_ix4 (hr : SX.ReducesTo [0, 2, 3] SC) (b : Fin 32) (d : Fin 256) (h w : Fin 64) :
    hr.drop (ix4 b d h w) = ix1 d := by
  funext a
  match a with
  | ⟨0, _⟩ => exact Fin.ext rfl

/-- The host's sum over axes 0, 2, 3 from the zero word, at channel d, is the triple sum over (b, h, w). -/
theorem reduce023 (f : FVec Ideal SX .f32) (hr : SX.ReducesTo [0, 2, 3] SC) (h' : 0 < (⟨0, ![]⟩ : Shape).numel)
    (d : Fin 256) :
    Host.reduceAdd (F := Ideal) f (constant ⟨0, ![]⟩ .f32 0x00000000#32) hr h' (ix1 d)
      = ∑ b : Fin 32, ∑ h : Fin 64, ∑ w : Fin 64, f (ix4 b d h w) := by
  simp only [Host.reduceAdd, Ideal.hostReduceAdd_def]
  unfold Ideal.hostReduceAdd
  rw [constant_apply, Ideal.ofBits_zero_f32, zero_add, sum3]
  refine Finset.sum_nbij' (fun i => ((i 0 : Fin 32), (i 2 : Fin 64), (i 3 : Fin 64)))
    (fun p => ix4 p.1 d p.2.1 p.2.2) ?_ ?_ ?_ ?_ ?_
  · intro i _; exact Finset.mem_univ _
  · intro p _; exact Finset.mem_filter.mpr ⟨Finset.mem_univ _, drop_ix4 hr _ _ _ _⟩
  · intro i hi
    obtain ⟨b, d', h, w, rfl⟩ : ∃ (b : Fin 32) (d' : Fin 256) (h w : Fin 64), i = ix4 b d' h w :=
      ⟨i 0, i 1, i 2, i 3, eq_ix4 i⟩
    have e := (Finset.mem_filter.mp hi).2
    rw [drop_ix4] at e
    have e' : d' = d := congrFun e 0
    subst e'
    rfl
  · intro p _; rfl
  · intro i hi
    obtain ⟨b, d', h, w, rfl⟩ : ∃ (b : Fin 32) (d' : Fin 256) (h w : Fin 64), i = ix4 b d' h w :=
      ⟨i 0, i 1, i 2, i 3, eq_ix4 i⟩
    have e := (Finset.mem_filter.mp hi).2
    rw [drop_ix4] at e
    have e' : d' = d := congrFun e 0
    subst e'
    rfl

/-! ## The reference's stages at an index -/

variable (x : FVec Ideal SX .f32) (mk : IVec SM 1) (γ β : FVec Ideal SC .f32)

/-- The sum over (b, h, w) of the masked squared deviations of channel d from the specification's mean. -/
def sqDev (d : Fin 256) : EReal :=
  ∑ b : Fin 32, ∑ h : Fin 64, ∑ w : Fin 64,
    ((x (ix4 b d h w) - Cert.Spec.mean x mk d) * (x (ix4 b d h w) - Cert.Spec.mean x mk d)) * Cert.Spec.nm mk (ix4 b 0 h w)

theorem ref_cnt (j : S_.Idx) : val_main_v2 (F := Ideal) mk j = Cert.Spec.cnt mk := by
  rw [val_main_v2_apply, val_main_cst_apply, Ideal.ofBits_def, Ideal.ofBits_zero_f32, zero_add]; rfl

/-- The mask's pixel of (b, d, h, w) is (b, 0, h, w) … -/
theorem pix_v3 (b : Fin 32) (d : Fin 256) (h w : Fin 64) : idx_main_v3 (ix4 b d h w) = ix4 b 0 h w := by
  funext a; match a with | ⟨0, _⟩ => rfl | ⟨1, _⟩ => rfl | ⟨2, _⟩ => rfl | ⟨3, _⟩ => rfl
theorem pix_v12 (b : Fin 32) (d : Fin 256) (h w : Fin 64) : idx_main_v12 (ix4 b d h w) = ix4 b 0 h w := by
  funext a; match a with | ⟨0, _⟩ => rfl | ⟨1, _⟩ => rfl | ⟨2, _⟩ => rfl | ⟨3, _⟩ => rfl
theorem pix_call0 (b : Fin 32) (d : Fin 256) (h w : Fin 64) : idx_main_call0_v0 (ix4 b d h w) = ix4 b 0 h w := by
  funext a; match a with | ⟨0, _⟩ => rfl | ⟨1, _⟩ => rfl | ⟨2, _⟩ => rfl | ⟨3, _⟩ => rfl

/-- … and its channel is d. -/
theorem chan_8_9 (b : Fin 32) (d : Fin 256) (h w : Fin 64) : idx_main_v8 (idx_main_v9 (ix4 b d h w)) = ix1 d := by
  funext a; match a with | ⟨0, _⟩ => rfl
theorem chan_8_23 (b : Fin 32) (d : Fin 256) (h w : Fin 64) : idx_main_v8 (idx_main_v23 (ix4 b d h w)) = ix1 d := by
  funext a; match a with | ⟨0, _⟩ => rfl
theorem chan_17_25 (b : Fin 32) (d : Fin 256) (h w : Fin 64) : idx_main_v17 (idx_main_v25 (ix4 b d h w)) = ix1 d := by
  funext a; match a with | ⟨0, _⟩ => rfl
theorem chan_21_25 (b : Fin 32) (d : Fin 256) (h w : Fin 64) : idx_main_v21 (idx_main_v25 (ix4 b d h w)) = ix1 d := by
  funext a; match a with | ⟨0, _⟩ => rfl
theorem chan_27_28 (b : Fin 32) (d : Fin 256) (h w : Fin 64) : idx_main_v27 (idx_main_v28 (ix4 b d h w)) = ix1 d := by
  funext a; match a with | ⟨0, _⟩ => rfl

theorem ref_v4 (b : Fin 32) (d : Fin 256) (h w : Fin 64) :
    val_main_v4 (F := Ideal) x mk (ix4 b d h w) = x (ix4 b d h w) * Cert.Spec.nm mk (ix4 b 0 h w) := by
  rw [val_main_v4_apply, val_main_v3_apply, pix_v3]; rfl

/-- The reference's first sum is the specification's masked sum. -/
theorem ref_v5 (d : Fin 256) : val_main_v5 (F := Ideal) x mk (ix1 d) = Cert.Spec.s1 x mk d := by
  unfold val_main_v5 val_main_cst_0
  refine (reduce023 (val_main_v4 (F := Ideal) x mk) reducesTo_S32x256x64x64_S256_d0_2_3 h_S_ d).trans ?_
  unfold Cert.Spec.s1
  simp only [ref_v4]

/-- The reference's mean is the specification's. -/
theorem ref_mean (d : Fin 256) : val_main_v7 (F := Ideal) x mk (ix1 d) = Cert.Spec.mean x mk d := by
  rw [val_main_v7_apply, ref_v5, val_main_v6_apply, ref_cnt]; rfl

theorem ref_v10 (b : Fin 32) (d : Fin 256) (h w : Fin 64) :
    val_main_v10 (F := Ideal) x mk (ix4 b d h w) = x (ix4 b d h w) - Cert.Spec.mean x mk d := by
  rw [val_main_v10_apply, val_main_v9_apply, val_main_v8_apply, chan_8_9, ref_mean]; rfl

theorem ref_v13 (b : Fin 32) (d : Fin 256) (h w : Fin 64) :
    val_main_v13 (F := Ideal) x mk (ix4 b d h w)
      = ((x (ix4 b d h w) - Cert.Spec.mean x mk d) * (x (ix4 b d h w) - Cert.Spec.mean x mk d))
        * Cert.Spec.nm mk (ix4 b 0 h w) := by
  rw [val_main_v13_apply, val_main_v11_apply, ref_v10, val_main_v12_apply, pix_v12]; rfl

/-- The reference's second sum is the sum of the masked squared deviations. -/
theorem ref_v14 (d : Fin 256) : val_main_v14 (F := Ideal) x mk (ix1 d) = sqDev x mk d := by
  unfold val_main_v14 val_main_cst_1
  refine (reduce023 (val_main_v13 (F := Ideal) x mk) reducesTo_S32x256x64x64_S256_d0_2_3 h_S_ d).trans ?_
  unfold sqDev
  simp only [ref_v13]

theorem ref_v20 (d : Fin 256) :
    val_main_v20 (F := Ideal) x mk (ix1 d)
      = Ideal.sqrt (Ideal.div (sqDev x mk d) (Cert.Spec.cnt mk) + Cert.Spec.eps) := by
  rw [val_main_v20_apply, val_main_v19_apply, val_main_v16_apply, ref_v14, val_main_v15_apply, ref_cnt,
    val_main_v18_apply, val_main_cst_2_apply]
  simp only [Ideal.hostUnary_sqrt_def, Ideal.addf_def, Ideal.hostDivf_def, Ideal.ofBits_def, Cert.Spec.eps]

/-- The reference's last stage before the select. -/
theorem ref_v29 (b : Fin 32) (d : Fin 256) (h w : Fin 64) :
    val_main_v29 (F := Ideal) x mk γ β (ix4 b d h w)
      = (x (ix4 b d h w) - Cert.Spec.mean x mk d)
          * Ideal.div (γ (ix1 d)) (Ideal.sqrt (Ideal.div (sqDev x mk d) (Cert.Spec.cnt mk) + Cert.Spec.eps))
        + β (ix1 d) := by
  rw [val_main_v29_apply, val_main_v26_apply, val_main_v24_apply, val_main_v23_apply, val_main_v8_apply, chan_8_23,
    ref_mean, val_main_v25_apply, val_main_v22_apply, val_main_v17_apply, chan_17_25, val_main_v21_apply, chan_21_25,
    ref_v20, val_main_v28_apply, val_main_v27_apply, chan_27_28]; rfl

/-- The select's condition at (b, d, h, w) is the mask bit of the pixel. -/
theorem ref_sel (b : Fin 32) (d : Fin 256) (h w : Fin 64) :
    val_main_call0_v0 (F := Ideal) mk (ix4 b d h w) = mk (ix4 b 0 h w) := by
  rw [val_main_call0_v0_apply, pix_call0]

end Cert.RefBridge

end
-- ==== Proof.BridgeValue.lean ====
/-
  The specification's quantities as reals.  With every entry of x a real, the unmasked indicator n ∈ {0, 1} and
  N = Σ n > 0, the specification's mean, variance and scale are reals, the variance
  S₂/N − mean² is the mean of the masked squared deviations Σ n·(x − mean)²/N ≥ 0, and an entry of the result is
  x where the pixel is masked out and (x − mean)·inv + β where it is not.
-/
import proofs.«152003_j17076789969318_2_alg».proof.Proof.Spec
import proofs.«152003_j17076789969318_2_alg».proof.Proof.BridgeAlgebra

noncomputable section

open scoped BigOperators

namespace Cert.RefBridge

open Idealize.ShloMosaic Idealize.ShloMosaic.ValueIdx Cert.Spec

variable (x : FVec Ideal SX .f32) (mk : IVec SM 1) (γ β : FVec Ideal SC .f32)

/-! ## The unmasked indicator as a real -/

/-- The unmasked indicator as a real number: the negated mask bit, 0 or 1. -/
def nr (i : SM.Idx) : ℝ := ((~~~(mk i)).toNat : ℝ)

theorem nm_eq (i : SM.Idx) : nm mk i = (nr mk i : EReal) := rfl

theorem nr_nonneg (i : SM.Idx) : 0 ≤ nr mk i := Nat.cast_nonneg _

theorem nr_of_one {i : SM.Idx} (h : mk i = 1#1) : nr mk i = 0 := by
  have e : (~~~(1#1 : BitVec 1)).toNat = 0 := by decide
  unfold nr; rw [h, e, Nat.cast_zero]

theorem nr_of_zero {i : SM.Idx} (h : mk i = 0#1) : nr mk i = 1 := by
  have e : (~~~(0#1 : BitVec 1)).toNat = 1 := by decide
  unfold nr; rw [h, e, Nat.cast_one]

/-- The pixels (b, h, w). -/
abbrev Pix : Type := Fin 32 × Fin 64 × Fin 64

/-- The indicator at a pixel. -/
def nP (p : Pix) : ℝ := nr mk (ix4 p.1 0 p.2.1 p.2.2)

theorem nP_nonneg (p : Pix) : 0 ≤ nP mk p := nr_nonneg mk _

/-- The count of unmasked pixels is a real: the sum of the indicator over the pixels. -/
theorem cnt_coe : cnt mk = ((∑ p : Pix, nP mk p : ℝ) : EReal) := by
  unfold cnt
  rw [sum_idx4, coe_sum]
  refine Eq.trans ?_ (sum3 (fun (b : Fin 32) (h : Fin 64) (w : Fin 64) => ((nr mk (ix4 b 0 h w) : ℝ) : EReal)))
  refine Finset.sum_congr rfl fun b _ => ?_
  rw [Fin.sum_univ_one]
  rfl

/-- The mean of the masked squared deviations from the specification's mean. -/
def refVar (d : Fin 256) : EReal :=
  Ideal.div (∑ b : Fin 32, ∑ h : Fin 64, ∑ w : Fin 64,
    ((x (ix4 b d h w) - mean x mk d) * (x (ix4 b d h w) - mean x mk d)) * nm mk (ix4 b 0 h w)) (cnt mk)

/-- The entry of channel d at a pixel, the real mean of channel d, and the real mean of its masked squared
    deviations. -/
def aP (xr : SX.Idx → ℝ) (d : Fin 256) (p : Pix) : ℝ := xr (ix4 p.1 d p.2.1 p.2.2)
def mR (xr : SX.Idx → ℝ) (d : Fin 256) : ℝ := (∑ p : Pix, aP xr d p * nP mk p) / (∑ p : Pix, nP mk p)
def vR (xr : SX.Idx → ℝ) (d : Fin 256) : ℝ :=
  (∑ p : Pix, ((aP xr d p - mR mk xr d) * (aP xr d p - mR mk xr d)) * nP mk p) / (∑ p : Pix, nP mk p)

section real
variable {x} (xr : SX.Idx → ℝ) (hxr : ∀ i, x i = (xr i : EReal))
include hxr

theorem s1_coe (d : Fin 256) : s1 x mk d = ((∑ p : Pix, aP xr d p * nP mk p : ℝ) : EReal) := by
  unfold s1
  rw [sum3, coe_sum]
  refine Finset.sum_congr rfl fun p _ => ?_
  rw [hxr, nm_eq, ← EReal.coe_mul]; rfl

theorem s2_coe (d : Fin 256) :
    s2 x mk d = ((∑ p : Pix, aP xr d p * (aP xr d p * nP mk p) : ℝ) : EReal) := by
  unfold s2
  rw [sum3, coe_sum]
  refine Finset.sum_congr rfl fun p _ => ?_
  rw [hxr, nm_eq, ← EReal.coe_mul, ← EReal.coe_mul]; rfl

/-- With a positive count the mean is a real. -/
theorem mean_coe (hN : 0 < ∑ p : Pix, nP mk p) (d : Fin 256) : mean x mk d = (mR mk xr d : EReal) := by
  unfold mean mR; rw [s1_coe mk xr hxr, cnt_coe, div_coe_coe _ (ne_of_gt hN)]

/-- The variance is the real mean of the masked squared deviations … -/
theorem var_coe (hN : 0 < ∑ p : Pix, nP mk p) (d : Fin 256) : var x mk d = (vR mk xr d : EReal) := by
  have hN0 : (∑ p : Pix, nP mk p) ≠ 0 := ne_of_gt hN
  unfold var
  rw [mean_coe mk xr hxr hN, s2_coe mk xr hxr, cnt_coe, div_coe_coe _ hN0, ← EReal.coe_mul, ← EReal.coe_sub]
  unfold vR mR
  rw [var_identity (aP xr d) (nP mk) hN0]

/-- … and so is the reference's own form of it. -/
theorem refVar_coe (hN : 0 < ∑ p : Pix, nP mk p) (d : Fin 256) : refVar x mk d = (vR mk xr d : EReal) := by
  have hN0 : (∑ p : Pix, nP mk p) ≠ 0 := ne_of_gt hN
  unfold refVar
  rw [mean_coe mk xr hxr hN, sum3, cnt_coe]
  have e : (∑ p : Pix, ((x (ix4 p.1 d p.2.1 p.2.2) - (mR mk xr d : EReal))
          * (x (ix4 p.1 d p.2.1 p.2.2) - (mR mk xr d : EReal))) * nm mk (ix4 p.1 0 p.2.1 p.2.2))
        = ((∑ p : Pix, ((aP xr d p - mR mk xr d) * (aP xr d p - mR mk xr d)) * nP mk p : ℝ) : EReal) := by
    rw [coe_sum]
    refine Finset.sum_congr rfl fun p _ => ?_
    rw [hxr, nm_eq, ← EReal.coe_sub, ← EReal.coe_mul, ← EReal.coe_mul]; rfl
  rw [e, div_coe_coe _ hN0]; rfl

omit hxr in
theorem vR_nonneg (hN : 0 < ∑ p : Pix, nP mk p) (d : Fin 256) : 0 ≤ vR mk xr d :=
  var_nonneg (aP xr d) (nP mk) (mR mk xr d) (nP_nonneg mk) hN

end real

/-! ## The scale is a real -/

/-- With a nonnegative real variance and a real γ the scale γ/√(var + ε) is a real. -/
theorem inv_real {d : Fin 256} {v g : ℝ} (hv : 0 ≤ v) (hvar : var x mk d = (v : EReal)) (hg : γ (ix1 d) = (g : EReal)) :
    ∃ r : ℝ, inv x mk γ d = (r : EReal) := by
  obtain ⟨e, he, hee⟩ := ofBits_eps
  have hpos : 0 < v + e := by linarith
  refine ⟨g / Real.sqrt (v + e), ?_⟩
  unfold inv eps
  rw [hvar, hee, hg, ← EReal.coe_add, sqrt_coe_nonneg hpos.le, div_coe_coe _ (ne_of_gt (Real.sqrt_pos.mpr hpos))]

/-! ## An entry of the result -/

/-- Where the mask excludes the pixel the entry is x itself. -/
theorem entry_masked (b : Fin 32) (d : Fin 256) (h w : Fin 64) (hbit : mk (ix4 b 0 h w) = 1#1) :
    koutAt x mk γ β b d h w = x (ix4 b d h w) := by
  unfold koutAt
  rw [nm_eq, nr_of_one mk hbit, EReal.coe_zero, zero_mul, add_zero]

/-- Where it does not, and every input is finite, the entry is (x − mean)·γ/√(v + ε) + β with v the mean of the masked
    squared deviations. -/
theorem entry_live (hx : ∀ i, ∃ r : ℝ, x i = (r : EReal)) (hγ : ∀ i, ∃ r : ℝ, γ i = (r : EReal))
    (hβ : ∀ i, ∃ r : ℝ, β i = (r : EReal)) (b : Fin 32) (d : Fin 256) (h w : Fin 64) (hbit : mk (ix4 b 0 h w) = 0#1) :
    koutAt x mk γ β b d h w
      = (x (ix4 b d h w) - mean x mk d) * Ideal.div (γ (ix1 d)) (Ideal.sqrt (refVar x mk d + eps)) + β (ix1 d) := by
  choose xr hxr using hx
  obtain ⟨g, hg⟩ := hγ (ix1 d)
  obtain ⟨c, hc⟩ := hβ (ix1 d)
  have hN : 0 < ∑ p : Pix, nP mk p :=
    Finset.sum_pos' (fun p _ => nP_nonneg mk p)
      ⟨((b, h, w) : Pix), Finset.mem_univ _, by
        show 0 < nr mk (ix4 b 0 h w)
        rw [nr_of_zero mk hbit]; exact one_pos⟩
  have hmean := mean_coe mk xr hxr hN d
  have hvar := var_coe mk xr hxr hN d
  have hrv := refVar_coe mk xr hxr hN d
  obtain ⟨r, hr⟩ := inv_real x mk γ (vR_nonneg mk xr hN d) hvar hg
  have hinv : Ideal.div (γ (ix1 d)) (Ideal.sqrt (refVar x mk d + eps)) = inv x mk γ d := by
    unfold inv; rw [hvar, hrv]
  rw [hinv]
  unfold koutAt shift
  rw [hr, hmean, hxr, hc, nm_eq, nr_of_zero mk hbit, ofBits_one]
  exact affine_eq _ _ _ _

end Cert.RefBridge

end
-- ==== Proof.Finite.lean ====
/-
  The precondition read back: when the printed predicate — |·| < +∞ at every entry of x, γ and β, all three
  conjoined — is one, every entry of the three float arrays is a real number.
-/
import proofs.«152003_j17076789969318_2_alg».proof.Pre_finite_inputs
import proofs.«152003_j17076789969318_2_alg».proof.Proof.Spec
import Idealize.ShloMosaic.Lib.ReduceAll
import Idealize.ShloMosaic.PureOps.Ideal.Laws

noncomputable section

namespace Cert.RefBridge

open Idealize.ShloMosaic Idealize.ShloMosaic.ValueIdx
open Cert.Spec (SX SM SC)

/-- An extended real whose absolute value is below the word of +∞ is a real. -/
theorem real_of_abs_lt_inf (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

/-- Under the precondition every entry of x, γ and β is a real. -/
theorem finite_of_pre [Cert.Pre_finite_inputs.Facts] (x : FVec Ideal SX .f32) (mk : IVec SM 1) (γ β : FVec Ideal SC .f32)
    (hpre : Cert.Pre_finite_inputs.fn (F := Ideal) x mk γ β = (fun _ => 1#1)) :
    (∀ i, ∃ r : ℝ, x i = (r : EReal)) ∧ (∀ i, ∃ r : ℝ, γ i = (r : EReal)) ∧ (∀ i, ∃ r : ℝ, β i = (r : EReal)) := by
  haveI : Subsingleton Cert.Pre_finite_inputs.S_.Idx := ⟨fun a b => funext fun d => d.elim0⟩
  have h0 := congrFun hpre ix0
  dsimp only [Cert.Pre_finite_inputs.fn] at h0
  obtain ⟨h8, h12⟩ := IntOp.andi_eq_one.1 h0
  obtain ⟨h3, h7⟩ := IntOp.andi_eq_one.1 h8
  refine ⟨fun i => ?_, fun i => ?_, fun i => ?_⟩
  · exact real_of_abs_lt_inf (x i) (Host.reduce_andi_all _ _ _ _ _ h3 i)
  · exact real_of_abs_lt_inf (γ i) (Host.reduce_andi_all _ _ _ _ _ h7 i)
  · exact real_of_abs_lt_inf (β i) (Host.reduce_andi_all _ _ _ _ _ h12 i)

end Cert.RefBridge

end
-- ==== Proof.RefValue.lean ====
/-
  The reference's result is the specification's result array: at (b, d, h, w) its select takes x where the mask bit is
  one — where the specification adds 0·(…) to x — and (x − mean d)·γ d/√(v d + ε) + β d where it is zero — where, every
  input being finite and at least one pixel unmasked, the specification's x + 1·(x·(inv d − 1) + shift d) is the same
  real number.  Then the reference's run and frame in the form the certificate's claims take.
-/
import proofs.«152003_j17076789969318_2_alg».proof.Defs
import proofs.«152003_j17076789969318_2_alg».proof.Proof.Gen.ReferenceIdeal.Read
import proofs.«152003_j17076789969318_2_alg».proof.Proof.Gen.Pre_finite_inputs
import proofs.«152003_j17076789969318_2_alg».proof.Proof.Spec
import proofs.«152003_j17076789969318_2_alg».proof.Proof.RefSums
import proofs.«152003_j17076789969318_2_alg».proof.Proof.BridgeValue
import proofs.«152003_j17076789969318_2_alg».proof.Proof.Finite

noncomputable section

namespace Cert.RefBridge

open Cert.ReferenceIdeal Cert.ReferenceIdeal.Gen Cert.ReferenceIdeal.Read Idealize.ShloMosaic Idealize.ShloMosaic.TcCoe
  Idealize.SL.Sem Idealize.ShloMosaic.ValueIdx
open Cert.Spec (SX SM SC)

/-- The reference's last stage is the specification's result array, for finite inputs. -/
theorem ref_eq_kout (x : FVec Ideal SX .f32) (mk : IVec SM 1) (γ β : FVec Ideal SC .f32)
    (hx : ∀ i, ∃ r : ℝ, x i = (r : EReal)) (hγ : ∀ i, ∃ r : ℝ, γ i = (r : EReal))
    (hβ : ∀ i, ∃ r : ℝ, β i = (r : EReal)) :
    Cert.ReferenceIdeal.Read.val_main_v30 (F := Ideal) x mk γ β = Cert.Spec.kout x mk γ β := by
  funext i
  obtain ⟨b, d, h, w, rfl⟩ : ∃ (b : Fin 32) (d : Fin 256) (h w : Fin 64), i = ix4 b d h w :=
    ⟨i 0, i 1, i 2, i 3, eq_ix4 i⟩
  rw [val_main_v30_apply, ref_sel, Cert.Spec.kout_ix4]
  by_cases hbit : mk (ix4 b 0 h w) = 1#1
  · rw [hbit, select_one, entry_masked x mk γ β b d h w hbit]
  · have hz := eq_zero_of_ne_one hbit
    have e : refVar x mk d = Ideal.div (sqDev x mk d) (Cert.Spec.cnt mk) := rfl
    rw [hz, select_zero, ref_v29, entry_live x mk γ β hx hγ hβ b d h w hz, e]

/-- Under the precondition the reference's run ends with its result at the specification's result array of its own
    arguments, and the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v30)
          = Cert.Spec.kout
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run Cert.ReferenceIdeal.defs _ _).mono (fun _ h c => ⟨(h c).1.trans ?_, (h c).2⟩)
    (Cert.ReferenceIdeal.Value.run (F := Ideal) m' ρ')
  obtain ⟨hx, hγ, hβ⟩ := finite_of_pre _ _ _ _ (hpre c)
  exact (Cert.ReferenceIdeal.Read.val_main_v30_eq _ _ _ _).trans (ref_eq_kout _ _ _ _ hx hγ hβ)

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.RefBridge

end
-- ==== Proof.lean ====
/-
  Masked batch normalisation, a two-pass Pallas kernel against its jnp reference.

  The kernel program: the host negates the mask and reads it as a float indicator nm; a first pallas_call walks the
  batch (one grid point per batch element), adding per channel the block's masked sum Σ x·nm and masked sum of
  squares Σ x·(x·nm) to two running vectors in scratch, started from zero at the first point and copied to the two
  result vectors at the last; the host turns the two sums and the count N = Σ nm into a per-channel scale
  γ/√(S₂/N − (S₁/N)² + ε) and shift β − (S₁/N)·scale; a second pallas_call writes x + nm·(x·(scale − 1) + shift).
  The reference computes the mean, the variance as the masked mean of (x − mean)², (x − mean)·γ/√(var + ε) + β, and
  selects x where the mask excludes the pixel.

  Frames: both pallas_calls' body obligations are proved over their proof data (the first call's invariant names
  the two running vectors' contents point by point), and the program's run is assembled segment by segment; the
  reference's frame is its run read back.  Nothing was rewritten by the idealization, so it is preserved trivially.
  Equality of the results on the extended reals: where the mask excludes a pixel both sides give x (0 times anything
  is 0); where it does not, N ≥ 1, every sum is a finite real by the precondition, S₂/N − (S₁/N)² is the masked mean
  of (x − mean)², which is ≥ 0, so the scale is a real number and the two affine forms agree by ring identities.
-/
import proofs.«152003_j17076789969318_2_alg».proof.Defs
import proofs.«152003_j17076789969318_2_alg».proof.Proof.Gen.Kernel
import proofs.«152003_j17076789969318_2_alg».proof.Proof.Gen.KernelIdeal
import proofs.«152003_j17076789969318_2_alg».proof.Proof.Gen.ReferenceIdeal
import proofs.«152003_j17076789969318_2_alg».proof.Proof.Gen.Pre_finite_inputs
import proofs.«152003_j17076789969318_2_alg».proof.Proof.WKRun
import proofs.«152003_j17076789969318_2_alg».proof.Proof.KRun
import proofs.«152003_j17076789969318_2_alg».proof.Proof.KValue
import proofs.«152003_j17076789969318_2_alg».proof.Proof.RefValue
import Idealize.ShloMosaic.Adequacy
import Idealize.ShloMosaic.Init

noncomputable section

namespace Cert.Proof

open Idealize.ShloMosaic Idealize.SL.Sem

/-- The kernel program as printed terminates, faults nowhere and leaves its arguments as launched. -/
theorem frame_p : Cert.frame_Kernel := fun m ρ _ => Cert.Kernel.Hand.frame (F := Bits) m ρ
/-- The same of its idealization. -/
theorem frame_pi : Cert.frame_KernelIdeal := fun m ρ _ => Cert.KernelIdeal.Hand.frame (F := Ideal) m ρ

/-- The idealization rewrote nothing. -/
theorem preserves : Cert.preserves_Kernel_KernelIdeal := trivial

/-- Both idealized programs end with the specification's function of the arguments in their result array. -/
theorem algebraic : Cert.algebraic_KernelIdeal_ReferenceIdeal := by
  intro m ρ m' ρ' hpre hagree
  refine ⟨fun c => Cert.Spec.kout (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Hand.kernel_value m ρ c), (h c).2⟩)
      (Cert.KernelIdeal.Hand.run_main (F := Ideal) m ρ)
  · have hpre' : Cert.Pre_ReferenceIdeal m' := fun c => by
      rw [(hagree c).1, (hagree c).2.1, (hagree c).2.2.1, (hagree c).2.2.2]; exact hpre c
    refine (θ_run Cert.ReferenceIdeal.defs _ _).mono (fun r h c => ⟨?_, (h c).2⟩) (Cert.RefBridge.ref_run m' ρ' hpre')
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_p, frame_pi, Cert.RefBridge.frame_ri, preserves, algebraic⟩

end Cert.Proof

end
